-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S192x64 .f32) (main_arg10 : FVec F S64 .f32) (main_arg11 : FVec F S64x64 .f32) (main_arg12 : FVec F S64 .f32) (main_v33 : IVec S_ 1) : IVec S_ 1 :=
  let main_v34 : FVec F S192x64 .f32 := Host.absf main_arg9
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S192x64 .f32) (main_arg10 : FVec F S64 .f32) (main_arg11 : FVec F S64x64 .f32) (main_arg12 : FVec F S64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : FVec F S800000x64 .f32) (main_arg3 : FVec F S64x64 .f32) (main_arg4 : IVec S50000 32) (main_arg5 : FVec F S192x64 .f32) (main_arg6 : FVec F S64 .f32) (main_arg7 : FVec F S64x64 .f32) (main_arg8 : FVec F S64 .f32) (main_arg9 : FVec F S192x64 .f32) (main_arg10 : FVec F S64 .f32) (main_arg11 : FVec F S64x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x64 .f32 := Host.absf main_arg5
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x64 : Shape := ⟨2, ![128, 64]⟩
abbrev S1x64 : Shape := ⟨2, ![1, 64]⟩
abbrev S8000x128 : Shape := ⟨2, ![8000, 128]⟩
abbrev S8000x64 : Shape := ⟨2, ![8000, 64]⟩
abbrev S50000x64 : Shape := ⟨2, ![50000, 64]⟩
abbrev S10000x128 : Shape := ⟨2, ![10000, 128]⟩
abbrev S10000x64 : Shape := ⟨2, ![10000, 64]⟩

abbrev nBuf : Space → Nat
  | .hbm => 40
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S128x64, .f32⟩
  | .hbm, ⟨27, _⟩ => ⟨S64x64, .f32⟩
  | .hbm, ⟨28, _⟩ => ⟨S1x64, .f32⟩
  | .hbm, ⟨29, _⟩ => ⟨S1x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S128x64, .f32⟩
  | .hbm, ⟨36, _⟩ => ⟨S64x64, .f32⟩
  | .hbm, ⟨37, _⟩ => ⟨S1x64, .f32⟩
  | .hbm, ⟨38, _⟩ => ⟨S1x64, .f32⟩
  | .hbm, ⟨39, _⟩ => ⟨S50000x64, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S128x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S8000x64, .f32⟩
  | .local _ .vmem, ⟨10, _⟩ => ⟨S8000x64, .f32⟩
  | .local _ .vmem, ⟨11, _⟩ => ⟨S10000x128, .f32⟩
  | .local _ .vmem, ⟨12, _⟩ => ⟨S10000x128, .f32⟩
  | .local _ .vmem, ⟨13, _⟩ => ⟨S10000x64, .f32⟩
  | .local _ .vmem, ⟨14, _⟩ => ⟨S10000x64, .f32⟩
  | .local _ .vmem, ⟨15, _⟩ => ⟨S128x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S192x64_S128x64_0_0 : S192x64.Slices ![0, 0] S128x64
  slices_S192x64_S64x64_128_0 : S192x64.Slices ![128, 0] S64x64
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  inb_S10000x128_S10000x128_0_0 : ∀ a, (![0, 0] : Fin 2 → Nat) a + S10000x128.size a ≤ S10000x128.size a
  h_S10000x128 : 0 < S10000x128.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S50000x128_S800000x1_S800000x128_1_0_n_n_0_1_1128_wf : GatherDims.WF S50000x128 S800000x1 S800000x128 [1] [0] [] [0] [] 1 ![1, 128]
  dot_S8000x128_S128x64_S8000x64_1_0_0_1_n_n_wf : DotDims.WF S8000x128 S128x64 S8000x64 [1] [0] [0] [1] [] []
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .f32 = 32 ∨ (Rect.block (s := S800000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S64x64 : Shape := ⟨2, ![64, 64]⟩
abbrev S50000 : Shape := ⟨1, ![50000]⟩
abbrev S192x64 : Shape := ⟨2, ![192, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x64 : Shape := ⟨2, ![1, 64]⟩
abbrev S50000x64 : Shape := ⟨2, ![50000, 64]⟩
abbrev S50000x192 : Shape := ⟨2, ![50000, 192]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S64x64, .f32⟩
  | .hbm, ⟨4, _⟩ => ⟨S50000, .i32⟩
  | .hbm, ⟨5, _⟩ => ⟨S192x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x192, .f32⟩
  | .hbm, ⟨27, _⟩ => ⟨S800000x64, .f32⟩
  | .hbm, ⟨28, _⟩ => ⟨S1x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x192, .f32⟩
  | .hbm, ⟨46, _⟩ => ⟨S50000x64, .f32⟩
  | .hbm, ⟨47, _⟩ => ⟨S1x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | .hbm, ⟨57, _⟩ => ⟨S_, .f32⟩
  | .hbm, ⟨58, _⟩ => ⟨S50000x64, .f32⟩
  | .hbm, ⟨59, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call2_cst : Ref sig .tc := ⟨.hbm, 50, rfl⟩
abbrev main_call2_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call3_cst : Ref sig .tc := ⟨.hbm, 57, rfl⟩
abbrev main_call3_v0 : Ref sig .tc := ⟨.hbm, 58, rfl⟩
abbrev main_v35 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  concatenates_S50000x128_S50000x64_S50000x192_d1 : Shape.Concatenates [S50000x128, S50000x64] S50000x192 1
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  dot_S800000x192_S192x64_S800000x64_1_0_0_1_n_n_wf : DotDims.WF S800000x192 S192x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The kernel program's run with its result named.

  The program is four stretches in a row: host operations, the edge stage, host operations, the node stage.  Every
  weakly fair execution runs them in that order and ends with each buffer that outlives the stages at the contents the
  fold through the four stretches leaves there.  The frame claim keeps of that only "the argument arrays are as
  launched"; a value claim also needs the result, so the same run is stated here once more with the result array
  named as the fold's contents at the result buffer, beside the unchanged arguments.
-/
import proofs.«108677_j48928267436353_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents
    the four stretches leave at its buffer and every argument array as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.Run

end
-- ==== Proof.MlpRow.lean ====
/-
  One row of a two-layer perceptron whose first layer reads two inputs side by side.

  The first layer takes a row `a` of 128 entries and a row `b` of 64 entries.  Written with ONE weight matrix of
  192 rows it is  relu ([a, b] · W + c₁);  written with that matrix cut into its first 128 rows `Wa` and its last 64
  rows `Wb` it is  relu (a · Wa + b · Wb + c₁).  The second layer is  relu (h · W₂ + c₂).  `row` is the cut form.

  The two forms agree because a sum over the 192 joined positions is the sum over the first 128 plus the sum over
  the last 64 — a regrouping of one finite sum, which holds in every commutative monoid and so on the extended
  reals with no finiteness assumption (no product is distributed and nothing is cancelled).
-/
import Mathlib.Data.EReal.Operations
import Mathlib.Algebra.BigOperators.Fin

namespace Cert.SplitMlp

/-- Entry `q` of the perceptron's output row, the first layer's weights given as the two pieces `Wa`, `Wb`:
    max (Σ_k max (Σ_j a j · Wa j k + Σ_j b j · Wb j k + c₁ k) 0 · W₂ k q + c₂ q) 0. -/
noncomputable def row (a : Fin 128 → EReal) (b : Fin 64 → EReal) (Wa : Fin 128 → Fin 64 → EReal)
    (Wb : Fin 64 → Fin 64 → EReal) (c₁ : Fin 64 → EReal) (W₂ : Fin 64 → Fin 64 → EReal) (c₂ : Fin 64 → EReal)
    (q : Fin 64) : EReal :=
  max ((∑ k : Fin 64, max ((∑ j : Fin 128, a j * Wa j k) + (∑ j : Fin 64, b j * Wb j k) + c₁ k) 0 * W₂ k q) + c₂ q) 0

/-- The row function of equal inputs. -/
theorem row_congr {a a' : Fin 128 → EReal} {b b' : Fin 64 → EReal} {Wa Wa' : Fin 128 → Fin 64 → EReal}
    {Wb Wb' : Fin 64 → Fin 64 → EReal} {c₁ c₁' : Fin 64 → EReal} {W₂ W₂' : Fin 64 → Fin 64 → EReal}
    {c₂ c₂' : Fin 64 → EReal} (ha : a = a') (hb : b = b') (hWa : Wa = Wa') (hWb : Wb = Wb') (hc₁ : c₁ = c₁')
    (hW₂ : W₂ = W₂') (hc₂ : c₂ = c₂') (q : Fin 64) :
    row a b Wa Wb c₁ W₂ c₂ q = row a' b' Wa' Wb' c₁' W₂' c₂' q := by
  subst ha hb hWa hWb hc₁ hW₂ hc₂; rfl

/-- A sum over 192 positions is the sum over the first 128 plus the sum over the last 64. -/
theorem sum_joined {M : Type*} [AddCommMonoid M] (f : Fin 192 → M) :
    ∑ k : Fin 192, f k
      = (∑ j : Fin 128, f ⟨j.val, by have := j.isLt; omega⟩) + ∑ j : Fin 64, f ⟨128 + j.val, by have := j.isLt; omega⟩ := by
  have h := Fin.sum_univ_add (M := M) (a := 128) (b := 64) f
  exact h

end Cert.SplitMlp
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.PayloadEdge.lean ====
/-
  The edge stage's stored value, read at one entry.

  One grid point of the edge stage holds 8000 rows: a block of gathered node features (8000 × 128), the matching block
  of edge features (8000 × 64), and the whole of the two weight pieces, the second layer's weights and the two bias
  rows.  The body multiplies, adds, clamps at zero, multiplies, adds and clamps again, and stores the 8000 × 64
  result.  Entry (p, q) of what it stores is the perceptron row function of row p of the two feature blocks: each
  matrix product into a zero accumulator is a plain sum of products over the contracted axis, a bias row laid along
  the rows is read at its column, and the identity casts vanish.
-/
import proofs.«108677_j48928267436353_2_alg».proof.Proof.Gen.KernelIdeal.Skeleton
import proofs.«108677_j48928267436353_2_alg».proof.Proof.MlpRow
import proofs.«108677_j48928267436353_2_alg».proof.Proof.LibPlainMatmul
import proofs.«108677_j48928267436353_2_alg».proof.Proof.LibRowBroadcast
import Idealize.ShloMosaic.Lib.ValueIdx
import Idealize.ShloMosaic.Lib.Pipeline.Value
import Idealize.ShloMosaic.PureOps.Ideal.Laws

noncomputable section

namespace Cert.KernelIdeal.EdgePayload

open Idealize.ShloMosaic Idealize.ShloMosaic.ValueIdx Cert.KernelIdeal Cert.KernelIdeal.Gen

/-- The two products of the edge body are plain ones: rows by contraction times contraction by columns. -/
theorem dot_wide : dot_S8000x128_S128x64_S8000x64_1_0_0_1_n_n = DotDims.plain 8000 128 64 := rfl
theorem dot_square : dot_S8000x64_S64x64_S8000x64_1_0_0_1_n_n = DotDims.plain 8000 64 64 := rfl

/-- Entry (p, q) of the edge body's stored value is the perceptron row of row p of its two feature blocks. -/
theorem payload_apply (x0 : Vec Ideal S8000x128 .f32) (x1 : Vec Ideal S8000x64 .f32) (x2 : Vec Ideal S128x64 .f32)
    (x3 : Vec Ideal S64x64 .f32) (x4 : Vec Ideal S1x64 .f32) (x5 : Vec Ideal S64x64 .f32) (x6 : Vec Ideal S1x64 .f32)
    (p : Fin 8000) (q : Fin 64) :
    k0_pay1 x0 x1 x2 x3 x4 x5 x6 (ix2 p q)
      = Cert.SplitMlp.row (fun j => x0 (ix2 p j)) (fun j => x1 (ix2 p j)) (fun j k => x2 (ix2 j k))
          (fun j k => x3 (ix2 j k)) (fun k => x4 (ix2 (0 : Fin 1) k)) (fun k n => x5 (ix2 k n))
          (fun n => x6 (ix2 (0 : Fin 1) n)) q := by
  unfold k0_pay1 Cert.SplitMlp.row
  simp only [shapeCast_self, dot_wide, dot_square, maximumf_apply, addf_apply, broadcast_apply,
    Cert.PlainMatmul.matmul_zero_apply,
    Cert.Lib.RowBroadcast.broadcastTo_1b_ab_apply (a := 8000) (b := 64) (by decide),
    Ideal.ofBits_def, Ideal.ofBits_zero_f32]

end Cert.KernelIdeal.EdgePayload

end
-- ==== Proof.Stages.lean ====
/-
  The two stages of the message-passing layer as functions of whole arrays.

  Both stages apply the same two-layer perceptron to every row.  The edge stage has 800000 rows: row r of its result
  is the perceptron row of row r of the gathered node features and row r of the edge features.  The node stage has
  50000 rows: row r of its result is the perceptron row of row r of the node features and row r of the aggregated
  messages.  The weight pieces are 128 × 64 and 64 × 64 matrices, the second layer's weights a 64 × 64 matrix, and the
  two biases are 1 × 64 rows.
-/
import proofs.«108677_j48928267436353_2_alg».proof.Proof.MlpRow
import Idealize.ShloMosaic.Lib.ValueIdx
import Idealize.ShloMosaic.PureOps.Ideal

noncomputable section

namespace Cert.SplitMlp

open Idealize.ShloMosaic Idealize.ShloMosaic.ValueIdx

/-- The message array: entry (r, q) is the perceptron row of row r of the gathered node features `xg` and of the
    edge features `ea`. -/
def edgeStage (xg : FVec Ideal ⟨2, ![800000, 128]⟩ .f32) (ea : FVec Ideal ⟨2, ![800000, 64]⟩ .f32)
    (wa : FVec Ideal ⟨2, ![128, 64]⟩ .f32) (wb : FVec Ideal ⟨2, ![64, 64]⟩ .f32) (c1 : FVec Ideal ⟨2, ![1, 64]⟩ .f32)
    (w2 : FVec Ideal ⟨2, ![64, 64]⟩ .f32) (c2 : FVec Ideal ⟨2, ![1, 64]⟩ .f32) : FVec Ideal ⟨2, ![800000, 64]⟩ .f32 :=
  fun i =>
    row (fun j => xg (ix2 (⟨(i 0).val, (i 0).isLt⟩ : Fin 800000) j))
      (fun j => ea (ix2 (⟨(i 0).val, (i 0).isLt⟩ : Fin 800000) j))
      (fun j k => wa (ix2 j k)) (fun j k => wb (ix2 j k)) (fun k => c1 (ix2 (0 : Fin 1) k)) (fun k n => w2 (ix2 k n))
      (fun n => c2 (ix2 (0 : Fin 1) n)) (⟨(i 1).val, (i 1).isLt⟩ : Fin 64)

theorem edgeStage_ix2 (xg : FVec Ideal ⟨2, ![800000, 128]⟩ .f32) (ea : FVec Ideal ⟨2, ![800000, 64]⟩ .f32)
    (wa : FVec Ideal ⟨2, ![128, 64]⟩ .f32) (wb : FVec Ideal ⟨2, ![64, 64]⟩ .f32) (c1 : FVec Ideal ⟨2, ![1, 64]⟩ .f32)
    (w2 : FVec Ideal ⟨2, ![64, 64]⟩ .f32) (c2 : FVec Ideal ⟨2, ![1, 64]⟩ .f32) (r : Fin 800000) (q : Fin 64) :
    edgeStage xg ea wa wb c1 w2 c2 (ix2 r q)
      = row (fun j => xg (ix2 r j)) (fun j => ea (ix2 r j)) (fun j k => wa (ix2 j k)) (fun j k => wb (ix2 j k))
          (fun k => c1 (ix2 (0 : Fin 1) k)) (fun k n => w2 (ix2 k n)) (fun n => c2 (ix2 (0 : Fin 1) n)) q := rfl

/-- The layer's result: entry (r, q) is the perceptron row of row r of the node features `x` and of the aggregated
    messages `agg`. -/
def nodeStage (x : FVec Ideal ⟨2, ![50000, 128]⟩ .f32) (agg : FVec Ideal ⟨2, ![50000, 64]⟩ .f32)
    (wa : FVec Ideal ⟨2, ![128, 64]⟩ .f32) (wb : FVec Ideal ⟨2, ![64, 64]⟩ .f32) (c1 : FVec Ideal ⟨2, ![1, 64]⟩ .f32)
    (w2 : FVec Ideal ⟨2, ![64, 64]⟩ .f32) (c2 : FVec Ideal ⟨2, ![1, 64]⟩ .f32) : FVec Ideal ⟨2, ![50000, 64]⟩ .f32 :=
  fun i =>
    row (fun j => x (ix2 (⟨(i 0).val, (i 0).isLt⟩ : Fin 50000) j))
      (fun j => agg (ix2 (⟨(i 0).val, (i 0).isLt⟩ : Fin 50000) j))
      (fun j k => wa (ix2 j k)) (fun j k => wb (ix2 j k)) (fun k => c1 (ix2 (0 : Fin 1) k)) (fun k n => w2 (ix2 k n))
      (fun n => c2 (ix2 (0 : Fin 1) n)) (⟨(i 1).val, (i 1).isLt⟩ : Fin 64)

theorem nodeStage_ix2 (x : FVec Ideal ⟨2, ![50000, 128]⟩ .f32) (agg : FVec Ideal ⟨2, ![50000, 64]⟩ .f32)
    (wa : FVec Ideal ⟨2, ![128, 64]⟩ .f32) (wb : FVec Ideal ⟨2, ![64, 64]⟩ .f32) (c1 : FVec Ideal ⟨2, ![1, 64]⟩ .f32)
    (w2 : FVec Ideal ⟨2, ![64, 64]⟩ .f32) (c2 : FVec Ideal ⟨2, ![1, 64]⟩ .f32) (r : Fin 50000) (q : Fin 64) :
    nodeStage x agg wa wb c1 w2 c2 (ix2 r q)
      = row (fun j => x (ix2 r j)) (fun j => agg (ix2 r j)) (fun j k => wa (ix2 j k)) (fun j k => wb (ix2 j k))
          (fun k => c1 (ix2 (0 : Fin 1) k)) (fun k n => w2 (ix2 k n)) (fun n => c2 (ix2 (0 : Fin 1) n)) q := rfl

end Cert.SplitMlp

end
-- ==== Proof.EdgeBlocks.lean ====
/-
  The edge stage's result array as one function of the arrays the stage reads.

  The edge stage runs over 100 grid points.  Point t reads rows 8000·t … 8000·t + 7999 of the gathered node features
  and of the edge features, reads the two weight pieces, the second layer's weights and the two bias rows whole, and
  writes rows 8000·t … 8000·t + 7999 of the message array.  The perceptron acts row by row, so what point t writes
  back is block t of ONE function `G` of the whole arrays: entry (r, q) is the perceptron row of row r of the two
  feature arrays.  The 100 blocks tile the 800000 rows (row r lies in block r / 8000), so the message array ends
  holding `G`.  Everything is stated at an arbitrary valuation `V` of the buffers on entry to the stage.
-/
import proofs.«108677_j48928267436353_2_alg».proof.Proof.Gen.KernelIdeal.Frame
import proofs.«108677_j48928267436353_2_alg».proof.Proof.PayloadEdge
import proofs.«108677_j48928267436353_2_alg».proof.Proof.Stages
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.EdgeStage

open Cert.KernelIdeal Cert.KernelIdeal.Gen Cert.SplitMlp

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the output window sit at block row t, column
    block 0; the five whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each window's block at point t, read at coordinates -/

/-- Row p of the gathered-features block at point t is row 8000·t + p of the array. -/
theorem xg_blk (c : Dev nD) (t : Fin cfg0.N) (p : Fin 8000) (j : Fin 128) (r : Fin 800000)
    (hr : r.val = t.val * 8000 + p.val) :
    (iblk0 V c 0 t : Vec Ideal S8000x128 .f32) (ix2 p j) = (V c main_v10 : FVec Ideal S800000x128 .f32) (ix2 r j) := by
  unfold iblk0
  rw [View.read_apply]
  show V c main_v10 _ = V c main_v10 _
  refine congrArg _ (funext fun a => Fin.ext ?_)
  obtain ⟨e0, e1, -⟩ := idx_facts t
  match a with
  | ⟨0, _⟩ => show win0_0.index t (0 : Fin 2) * 8000 + 1 * p.val = r.val; rw [e0, hr]; omega
  | ⟨1, _⟩ => show win0_0.index t (1 : Fin 2) * 128 + 1 * j.val = j.val; rw [e1]; omega

/-- Row p of the edge-features block at point t is row 8000·t + p of the array. -/
theorem ea_blk (c : Dev nD) (t : Fin cfg0.N) (p : Fin 8000) (j : Fin 64) (r : Fin 800000)
    (hr : r.val = t.val * 8000 + p.val) :
    (iblk0 V c 1 t : Vec Ideal S8000x64 .f32) (ix2 p j) = (V c main_arg2 : FVec Ideal S800000x64 .f32) (ix2 r j) := by
  unfold iblk0
  rw [View.read_apply]
  show V c main_arg2 _ = V c main_arg2 _
  refine congrArg _ (funext fun a => Fin.ext ?_)
  obtain ⟨-, -, e0, e1, -⟩ := idx_facts t
  match a with
  | ⟨0, _⟩ => show win0_1.index t (0 : Fin 2) * 8000 + 1 * p.val = r.val; rw [e0, hr]; omega
  | ⟨1, _⟩ => show win0_1.index t (1 : Fin 2) * 64 + 1 * j.val = j.val; rw [e1]; omega

/-- The first weight piece is read whole at every point. -/
theorem wa_blk (c : Dev nD) (t : Fin cfg0.N) (j : Fin 128) (k : Fin 64) :
    (iblk0 V c 2 t : Vec Ideal S128x64 .f32) (ix2 j k) = (V c main_v11 : FVec Ideal S128x64 .f32) (ix2 j k) := by
  unfold iblk0
  rw [View.read_apply]
  show V c main_v11 _ = V c main_v11 _
  refine congrArg _ (funext fun a => Fin.ext ?_)
  obtain ⟨-, -, -, -, e0, e1, -⟩ := idx_facts t
  match a with
  | ⟨0, _⟩ => show win0_2.index t (0 : Fin 2) * 128 + 1 * j.val = j.val; rw [e0]; omega
  | ⟨1, _⟩ => show win0_2.index t (1 : Fin 2) * 64 + 1 * k.val = k.val; rw [e1]; omega

/-- The second weight piece is read whole at every point. -/
theorem wb_blk (c : Dev nD) (t : Fin cfg0.N) (j : Fin 64) (k : Fin 64) :
    (iblk0 V c 3 t : Vec Ideal S64x64 .f32) (ix2 j k) = (V c main_v12 : FVec Ideal S64x64 .f32) (ix2 j k) := by
  unfold iblk0
  rw [View.read_apply]
  show V c main_v12 _ = V c main_v12 _
  refine congrArg _ (funext fun a => Fin.ext ?_)
  obtain ⟨-, -, -, -, -, -, e0, e1, -⟩ := idx_facts t
  match a with
  | ⟨0, _⟩ => show win0_3.index t (0 : Fin 2) * 64 + 1 * j.val = j.val; rw [e0]; omega
  | ⟨1, _⟩ => show win0_3.index t (1 : Fin 2) * 64 + 1 * k.val = k.val; rw [e1]; omega

/-- The first bias row is read whole at every point. -/
theorem c1_blk (c : Dev nD) (t : Fin cfg0.N) (u : Fin 1) (k : Fin 64) :
    (iblk0 V c 4 t : Vec Ideal S1x64 .f32) (ix2 u k) = (V c main_v13 : FVec Ideal S1x64 .f32) (ix2 u k) := by
  unfold iblk0
  rw [View.read_apply]
  show V c main_v13 _ = V c main_v13 _
  refine congrArg _ (funext fun a => Fin.ext ?_)
  obtain ⟨-, -, -, -, -, -, -, -, e0, e1, -⟩ := idx_facts t
  match a with
  | ⟨0, _⟩ => show win0_4.index t (0 : Fin 2) * 1 + 1 * u.val = u.val; rw [e0]; omega
  | ⟨1, _⟩ => show win0_4.index t (1 : Fin 2) * 64 + 1 * k.val = k.val; rw [e1]; omega

/-- The second layer's weights are read whole at every point. -/
theorem w2_blk (c : Dev nD) (t : Fin cfg0.N) (j : Fin 64) (k : Fin 64) :
    (iblk0 V c 5 t : Vec Ideal S64x64 .f32) (ix2 j k) = (V c main_arg7 : FVec Ideal S64x64 .f32) (ix2 j k) := by
  unfold iblk0
  rw [View.read_apply]
  show V c main_arg7 _ = V c main_arg7 _
  refine congrArg _ (funext fun a => Fin.ext ?_)
  obtain ⟨-, -, -, -, -, -, -, -, -, -, e0, e1, -⟩ := idx_facts t
  match a with
  | ⟨0, _⟩ => show win0_5.index t (0 : Fin 2) * 64 + 1 * j.val = j.val; rw [e0]; omega
  | ⟨1, _⟩ => show win0_5.index t (1 : Fin 2) * 64 + 1 * k.val = k.val; rw [e1]; omega

/-- The second bias row is read whole at every point. -/
theorem c2_blk (c : Dev nD) (t : Fin cfg0.N) (u : Fin 1) (k : Fin 64) :
    (iblk0 V c 6 t : Vec Ideal S1x64 .f32) (ix2 u k) = (V c main_v14 : FVec Ideal S1x64 .f32) (ix2 u k) := by
  unfold iblk0
  rw [View.read_apply]
  show V c main_v14 _ = V c main_v14 _
  refine congrArg _ (funext fun a => Fin.ext ?_)
  obtain ⟨-, -, -, -, -, -, -, -, -, -, -, -, e0, e1, -⟩ := idx_facts t
  match a with
  | ⟨0, _⟩ => show win0_6.index t (0 : Fin 2) * 1 + 1 * u.val = u.val; rw [e0]; omega
  | ⟨1, _⟩ => show win0_6.index t (1 : Fin 2) * 64 + 1 * k.val = k.val; rw [e1]; omega

/-- Entry (p, q) of the output block at point t sits at (8000·t + p, q) of the message array. -/
theorem out_emb (t : Fin cfg0.N) (p : Fin 8000) (q : Fin 64) (r : Fin 800000) (hr : r.val = t.val * 8000 + p.val) :
    ((cfg0.win 7).blk t).view.emb (ix2 p q) = (ix2 r q : S800000x64.Idx) := by
  refine funext fun a => Fin.ext ?_
  obtain ⟨-, -, -, -, -, -, -, -, -, -, -, -, -, -, e0, e1⟩ := idx_facts t
  match a with
  | ⟨0, _⟩ => show win0_7.index t (0 : Fin 2) * 8000 + 1 * p.val = r.val; rw [e0, hr]; omega
  | ⟨1, _⟩ => show win0_7.index t (1 : Fin 2) * 64 + 1 * q.val = q.val; rw [e1]; omega

/-! ## What a point writes back, the cover, the array -/

/-- What point t writes back is block t of `G` of the arrays as the stage finds them. -/
theorem flushed_eq (c : Dev nD) (t : Fin cfg0.N) :
    (dat0 V c).flushed 7 t = ((cfg0.win 7).blk t).view.read (Elt Ideal)
      (edgeStage (V c main_v10) (V c main_arg2) (V c main_v11) (V c main_v12) (V c main_v13) (V c main_arg7) (V c main_v14)) := by
  show (cfg0.win 7).cut (grid0.coords t) ((dat0 V c).after 7 t) = _
  rw [after0_7]
  unfold out0_7
  rw [View.canon_unit_zero hz]
  simp only [View.ld_unit_zero (S := S8000x128) hz, View.ld_unit_zero (S := S8000x64) hz,
    View.ld_unit_zero (S := S128x64) hz, View.ld_unit_zero (S := S64x64) hz, View.ld_unit_zero (S := S1x64) hz]
  funext y
  obtain ⟨p, q, rfl⟩ : ∃ (p : Fin 8000) (q : Fin 64), y = ix2 p q := ⟨y 0, y 1, eq_ix2 y⟩
  have hN : cfg0.N = 100 := N_0
  have hr : t.val * 8000 + p.val < 800000 := by have := t.isLt; have := p.isLt; omega
  refine (EdgePayload.payload_apply (iblk0 V c 0 t) (iblk0 V c 1 t) (iblk0 V c 2 t) (iblk0 V c 3 t)
    (iblk0 V c 4 t) (iblk0 V c 5 t) (iblk0 V c 6 t) p q).trans ?_
  rw [View.read_apply, out_emb t p q ⟨_, hr⟩ rfl, edgeStage_ix2]
  exact Cert.SplitMlp.row_congr (funext fun j => xg_blk V c t p j ⟨_, hr⟩ rfl)
    (funext fun j => ea_blk V c t p j ⟨_, hr⟩ rfl)
    (funext fun j => funext fun k => wa_blk V c t j k) (funext fun j => funext fun k => wb_blk V c t j k)
    (funext fun k => c1_blk V c t 0 k) (funext fun j => funext fun k => w2_blk V c t j k)
    (funext fun k => c2_blk V c t 0 k) q

/-- An index of the message array is in point t's block iff each coordinate is in the block's range. -/
theorem mem_blk (t : Fin cfg0.N) (i : S800000x64.Idx) :
    i ∈ ((cfg0.win 7).blk t).view.set ↔ ∀ a : Fin 2, win0_7.index t a * S8000x64.size a ≤ (i a).val
      ∧ (i a).val < win0_7.index t a * S8000x64.size a + S8000x64.size a := by
  show i ∈ ((View.whole main_v15).slice (win0_7.rect t)).set ↔ _
  rw [View.set_slice_whole, Rect.mem_set_unit]
  exact Iff.rfl

/-- Every row of the message array lies in some point's block: row r in block r / 8000. -/
theorem cover (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  have hN : cfg0.N = 100 := N_0
  have ht : (i 0).val / 8000 < cfg0.N := by rw [hN]; omega
  refine ⟨⟨(i 0).val / 8000, ht⟩, flush0_7 _, ?_⟩
  rw [mem_blk]
  obtain ⟨-, -, -, -, -, -, -, -, -, -, -, -, -, -, e0, e1⟩ := idx_facts ⟨(i 0).val / 8000, ht⟩
  intro a
  match a with
  | ⟨0, _⟩ =>
    show win0_7.index ⟨(i 0).val / 8000, ht⟩ (0 : Fin 2) * 8000 ≤ (i 0).val
      ∧ (i 0).val < win0_7.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_7.index ⟨(i 0).val / 8000, ht⟩ (1 : Fin 2) * 64 ≤ (i 1).val
      ∧ (i 1).val < win0_7.index ⟨(i 0).val / 8000, ht⟩ (1 : Fin 2) * 64 + 64
    rw [e1]; omega

/-- The message array after the edge stage is `G` of the arrays the stage found. -/
theorem final (c : Dev nD) :
    (dat0 V c).arrAt 7 cfg0.N
      = edgeStage (V c main_v10) (V c main_arg2) (V c main_v11) (V c main_v12) (V c main_v13) (V c main_arg7) (V c main_v14) :=
  (dat0 V c).arrAt_eq_of_cover 7 _ (fun t _ => flushed_eq V c t) cover

end Cert.KernelIdeal.EdgeStage

end
-- ==== Proof.PayloadNode.lean ====
/-
  The node stage's stored value, read at one entry.

  One grid point of the node stage holds 10000 rows: a block of node features (10000 × 128), the matching block of
  aggregated messages (10000 × 64), and the whole of the two weight pieces, the second layer's weights and the two
  bias rows.  The body is the edge stage's at another row count, so entry (p, q) of what it stores is the perceptron
  row function of row p of the two blocks: each matrix product into a zero accumulator is a plain sum of products
  over the contracted axis, a bias row laid along the rows is read at its column, and the identity casts vanish.
-/
import proofs.«108677_j48928267436353_2_alg».proof.Proof.Gen.KernelIdeal.Skeleton
import proofs.«108677_j48928267436353_2_alg».proof.Proof.MlpRow
import proofs.«108677_j48928267436353_2_alg».proof.Proof.LibPlainMatmul
import proofs.«108677_j48928267436353_2_alg».proof.Proof.LibRowBroadcast
import Idealize.ShloMosaic.Lib.ValueIdx
import Idealize.ShloMosaic.Lib.Pipeline.Value
import Idealize.ShloMosaic.PureOps.Ideal.Laws

noncomputable section

namespace Cert.KernelIdeal.NodePayload

open Idealize.ShloMosaic Idealize.ShloMosaic.ValueIdx Cert.KernelIdeal Cert.KernelIdeal.Gen

/-- The two products of the node body are plain ones: rows by contraction times contraction by columns. -/
theorem dot_wide : dot_S10000x128_S128x64_S10000x64_1_0_0_1_n_n = DotDims.plain 10000 128 64 := rfl
theorem dot_square : dot_S10000x64_S64x64_S10000x64_1_0_0_1_n_n = DotDims.plain 10000 64 64 := rfl

/-- Entry (p, q) of the node body's stored value is the perceptron row of row p of its two blocks. -/
theorem payload_apply (x0 : Vec Ideal S10000x128 .f32) (x1 : Vec Ideal S10000x64 .f32) (x2 : Vec Ideal S128x64 .f32)
    (x3 : Vec Ideal S64x64 .f32) (x4 : Vec Ideal S1x64 .f32) (x5 : Vec Ideal S64x64 .f32) (x6 : Vec Ideal S1x64 .f32)
    (p : Fin 10000) (q : Fin 64) :
    k1_pay1 x0 x1 x2 x3 x4 x5 x6 (ix2 p q)
      = Cert.SplitMlp.row (fun j => x0 (ix2 p j)) (fun j => x1 (ix2 p j)) (fun j k => x2 (ix2 j k))
          (fun j k => x3 (ix2 j k)) (fun k => x4 (ix2 (0 : Fin 1) k)) (fun k n => x5 (ix2 k n))
          (fun n => x6 (ix2 (0 : Fin 1) n)) q := by
  unfold k1_pay1 Cert.SplitMlp.row
  simp only [shapeCast_self, dot_wide, dot_square, maximumf_apply, addf_apply, broadcast_apply,
    Cert.PlainMatmul.matmul_zero_apply,
    Cert.Lib.RowBroadcast.broadcastTo_1b_ab_apply (a := 10000) (b := 64) (by decide),
    Ideal.ofBits_def, Ideal.ofBits_zero_f32]

end Cert.KernelIdeal.NodePayload

end
-- ==== Proof.NodeBlocks.lean ====
/-
  The node stage's result array as one function of the arrays the stage reads.

  The node stage runs over 5 grid points.  Point t reads rows 10000·t … 10000·t + 9999 of the node features and of the
  aggregated messages, reads the two weight pieces, the second layer's weights and the two bias rows whole, and writes
  rows 10000·t … 10000·t + 9999 of the result.  The perceptron acts row by row, so what point t writes back is block t
  of ONE function of the whole arrays, `nodeStage`: entry (r, q) is the perceptron row of row r of the node features
  and of the aggregated messages.  The 5 blocks tile the 50000 rows (row r lies in block r / 10000), so the result
  array ends holding `nodeStage` of the arrays the stage found.  Everything is stated at an arbitrary valuation `V` of
  the buffers on entry to the stage.
-/
import proofs.«108677_j48928267436353_2_alg».proof.Proof.Gen.KernelIdeal.Frame
import proofs.«108677_j48928267436353_2_alg».proof.Proof.PayloadNode
import proofs.«108677_j48928267436353_2_alg».proof.Proof.Stages
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.NodeStage

open Cert.KernelIdeal Cert.KernelIdeal.Gen Cert.SplitMlp

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two feature windows and the output window sit at block row t, column
    block 0; the five whole-array windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each window's block at point t, read at coordinates -/

/-- Row p of the node-features block at point t is row 10000·t + p of the array. -/
theorem x_blk (c : Dev nD) (t : Fin cfg1.N) (p : Fin 10000) (j : Fin 128) (r : Fin 50000)
    (hr : r.val = t.val * 10000 + p.val) :
    (iblk1 V c 0 t : Vec Ideal S10000x128 .f32) (ix2 p j) = (V c main_arg0 : FVec Ideal S50000x128 .f32) (ix2 r j) := by
  unfold iblk1
  rw [View.read_apply]
  show V c main_arg0 _ = V c main_arg0 _
  refine congrArg _ (funext fun a => Fin.ext ?_)
  obtain ⟨e0, e1, -⟩ := idx_facts t
  match a with
  | ⟨0, _⟩ => show win1_0.index t (0 : Fin 2) * 10000 + 1 * p.val = r.val; rw [e0, hr]; omega
  | ⟨1, _⟩ => show win1_0.index t (1 : Fin 2) * 128 + 1 * j.val = j.val; rw [e1]; omega

/-- Row p of the aggregated-messages block at point t is row 10000·t + p of the array. -/
theorem agg_blk (c : Dev nD) (t : Fin cfg1.N) (p : Fin 10000) (j : Fin 64) (r : Fin 50000)
    (hr : r.val = t.val * 10000 + p.val) :
    (iblk1 V c 1 t : Vec Ideal S10000x64 .f32) (ix2 p j) = (V c main_v18 : FVec Ideal S50000x64 .f32) (ix2 r j) := by
  unfold iblk1
  rw [View.read_apply]
  show V c main_v18 _ = V c main_v18 _
  refine congrArg _ (funext fun a => Fin.ext ?_)
  obtain ⟨-, -, e0, e1, -⟩ := idx_facts t
  match a with
  | ⟨0, _⟩ => show win1_1.index t (0 : Fin 2) * 10000 + 1 * p.val = r.val; rw [e0, hr]; omega
  | ⟨1, _⟩ => show win1_1.index t (1 : Fin 2) * 64 + 1 * j.val = j.val; rw [e1]; omega

/-- The first weight piece is read whole at every point. -/
theorem wa_blk (c : Dev nD) (t : Fin cfg1.N) (j : Fin 128) (k : Fin 64) :
    (iblk1 V c 2 t : Vec Ideal S128x64 .f32) (ix2 j k) = (V c main_v19 : FVec Ideal S128x64 .f32) (ix2 j k) := by
  unfold iblk1
  rw [View.read_apply]
  show V c main_v19 _ = V c main_v19 _
  refine congrArg _ (funext fun a => Fin.ext ?_)
  obtain ⟨-, -, -, -, e0, e1, -⟩ := idx_facts t
  match a with
  | ⟨0, _⟩ => show win1_2.index t (0 : Fin 2) * 128 + 1 * j.val = j.val; rw [e0]; omega
  | ⟨1, _⟩ => show win1_2.index t (1 : Fin 2) * 64 + 1 * k.val = k.val; rw [e1]; omega

/-- The second weight piece is read whole at every point. -/
theorem wb_blk (c : Dev nD) (t : Fin cfg1.N) (j : Fin 64) (k : Fin 64) :
    (iblk1 V c 3 t : Vec Ideal S64x64 .f32) (ix2 j k) = (V c main_v20 : FVec Ideal S64x64 .f32) (ix2 j k) := by
  unfold iblk1
  rw [View.read_apply]
  show V c main_v20 _ = V c main_v20 _
  refine congrArg _ (funext fun a => Fin.ext ?_)
  obtain ⟨-, -, -, -, -, -, e0, e1, -⟩ := idx_facts t
  match a with
  | ⟨0, _⟩ => show win1_3.index t (0 : Fin 2) * 64 + 1 * j.val = j.val; rw [e0]; omega
  | ⟨1, _⟩ => show win1_3.index t (1 : Fin 2) * 64 + 1 * k.val = k.val; rw [e1]; omega

/-- The first bias row is read whole at every point. -/
theorem c1_blk (c : Dev nD) (t : Fin cfg1.N) (u : Fin 1) (k : Fin 64) :
    (iblk1 V c 4 t : Vec Ideal S1x64 .f32) (ix2 u k) = (V c main_v21 : FVec Ideal S1x64 .f32) (ix2 u k) := by
  unfold iblk1
  rw [View.read_apply]
  show V c main_v21 _ = V c main_v21 _
  refine congrArg _ (funext fun a => Fin.ext ?_)
  obtain ⟨-, -, -, -, -, -, -, -, e0, e1, -⟩ := idx_facts t
  match a with
  | ⟨0, _⟩ => show win1_4.index t (0 : Fin 2) * 1 + 1 * u.val = u.val; rw [e0]; omega
  | ⟨1, _⟩ => show win1_4.index t (1 : Fin 2) * 64 + 1 * k.val = k.val; rw [e1]; omega

/-- The second layer's weights are read whole at every point. -/
theorem w2_blk (c : Dev nD) (t : Fin cfg1.N) (j : Fin 64) (k : Fin 64) :
    (iblk1 V c 5 t : Vec Ideal S64x64 .f32) (ix2 j k) = (V c main_arg11 : FVec Ideal S64x64 .f32) (ix2 j k) := by
  unfold iblk1
  rw [View.read_apply]
  show V c main_arg11 _ = V c main_arg11 _
  refine congrArg _ (funext fun a => Fin.ext ?_)
  obtain ⟨-, -, -, -, -, -, -, -, -, -, e0, e1, -⟩ := idx_facts t
  match a with
  | ⟨0, _⟩ => show win1_5.index t (0 : Fin 2) * 64 + 1 * j.val = j.val; rw [e0]; omega
  | ⟨1, _⟩ => show win1_5.index t (1 : Fin 2) * 64 + 1 * k.val = k.val; rw [e1]; omega

/-- The second bias row is read whole at every point. -/
theorem c2_blk (c : Dev nD) (t : Fin cfg1.N) (u : Fin 1) (k : Fin 64) :
    (iblk1 V c 6 t : Vec Ideal S1x64 .f32) (ix2 u k) = (V c main_v22 : FVec Ideal S1x64 .f32) (ix2 u k) := by
  unfold iblk1
  rw [View.read_apply]
  show V c main_v22 _ = V c main_v22 _
  refine congrArg _ (funext fun a => Fin.ext ?_)
  obtain ⟨-, -, -, -, -, -, -, -, -, -, -, -, e0, e1, -⟩ := idx_facts t
  match a with
  | ⟨0, _⟩ => show win1_6.index t (0 : Fin 2) * 1 + 1 * u.val = u.val; rw [e0]; omega
  | ⟨1, _⟩ => show win1_6.index t (1 : Fin 2) * 64 + 1 * k.val = k.val; rw [e1]; omega

/-- Entry (p, q) of the output block at point t sits at (10000·t + p, q) of the result array. -/
theorem out_emb (t : Fin cfg1.N) (p : Fin 10000) (q : Fin 64) (r : Fin 50000) (hr : r.val = t.val * 10000 + p.val) :
    ((cfg1.win 7).blk t).view.emb (ix2 p q) = (ix2 r q : S50000x64.Idx) := by
  refine funext fun a => Fin.ext ?_
  obtain ⟨-, -, -, -, -, -, -, -, -, -, -, -, -, -, e0, e1⟩ := idx_facts t
  match a with
  | ⟨0, _⟩ => show win1_7.index t (0 : Fin 2) * 10000 + 1 * p.val = r.val; rw [e0, hr]; omega
  | ⟨1, _⟩ => show win1_7.index t (1 : Fin 2) * 64 + 1 * q.val = q.val; rw [e1]; omega

/-! ## What a point writes back, the cover, the array -/

/-- What point t writes back is block t of `G` of the arrays as the stage finds them. -/
theorem flushed_eq (c : Dev nD) (t : Fin cfg1.N) :
    (dat1 V c).flushed 7 t = ((cfg1.win 7).blk t).view.read (Elt Ideal)
      (nodeStage (V c main_arg0) (V c main_v18) (V c main_v19) (V c main_v20) (V c main_v21) (V c main_arg11) (V c main_v22)) := by
  show (cfg1.win 7).cut (grid1.coords t) ((dat1 V c).after 7 t) = _
  rw [after1_7]
  unfold out1_7
  rw [View.canon_unit_zero hz]
  simp only [View.ld_unit_zero (S := S10000x128) hz, View.ld_unit_zero (S := S10000x64) hz,
    View.ld_unit_zero (S := S128x64) hz, View.ld_unit_zero (S := S64x64) hz, View.ld_unit_zero (S := S1x64) hz]
  funext y
  obtain ⟨p, q, rfl⟩ : ∃ (p : Fin 10000) (q : Fin 64), y = ix2 p q := ⟨y 0, y 1, eq_ix2 y⟩
  have hN : cfg1.N = 5 := N_1
  have hr : t.val * 10000 + p.val < 50000 := by have := t.isLt; have := p.isLt; omega
  refine (NodePayload.payload_apply (iblk1 V c 0 t) (iblk1 V c 1 t) (iblk1 V c 2 t) (iblk1 V c 3 t)
    (iblk1 V c 4 t) (iblk1 V c 5 t) (iblk1 V c 6 t) p q).trans ?_
  rw [View.read_apply, out_emb t p q ⟨_, hr⟩ rfl, nodeStage_ix2]
  exact Cert.SplitMlp.row_congr (funext fun j => x_blk V c t p j ⟨_, hr⟩ rfl)
    (funext fun j => agg_blk V c t p j ⟨_, hr⟩ rfl)
    (funext fun j => funext fun k => wa_blk V c t j k) (funext fun j => funext fun k => wb_blk V c t j k)
    (funext fun k => c1_blk V c t 0 k) (funext fun j => funext fun k => w2_blk V c t j k)
    (funext fun k => c2_blk V c t 0 k) q

/-- An index of the result array is in point t's block iff each coordinate is in the block's range. -/
theorem mem_blk (t : Fin cfg1.N) (i : S50000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v23).slice (win1_7.rect t)).set ↔ _
  rw [View.set_slice_whole, Rect.mem_set_unit]
  exact Iff.rfl

/-- Every row of the result array lies in some point's block: row r in block r / 10000. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 5 := N_1
  have ht : (i 0).val / 10000 < cfg1.N := by rw [hN]; omega
  refine ⟨⟨(i 0).val / 10000, ht⟩, flush1_7 _, ?_⟩
  rw [mem_blk]
  obtain ⟨-, -, -, -, -, -, -, -, -, -, -, -, -, -, e0, e1⟩ := idx_facts ⟨(i 0).val / 10000, ht⟩
  intro a
  match a with
  | ⟨0, _⟩ =>
    show win1_7.index ⟨(i 0).val / 10000, ht⟩ (0 : Fin 2) * 10000 ≤ (i 0).val
      ∧ (i 0).val < win1_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_7.index ⟨(i 0).val / 10000, ht⟩ (1 : Fin 2) * 64 ≤ (i 1).val
      ∧ (i 1).val < win1_7.index ⟨(i 0).val / 10000, ht⟩ (1 : Fin 2) * 64 + 64
    rw [e1]; omega

/-- The message array after the edge stage is `G` of the arrays the stage found. -/
theorem final (c : Dev nD) :
    (dat1 V c).arrAt 7 cfg1.N
      = nodeStage (V c main_arg0) (V c main_v18) (V c main_v19) (V c main_v20) (V c main_v21) (V c main_arg11) (V c main_v22) :=
  (dat1 V c).arrAt_eq_of_cover 7 _ (fun t _ => flushed_eq V c t) cover

end Cert.KernelIdeal.NodeStage

end
-- ==== Proof.KernelTerm.lean ====
/-
  The kernel program's result as one term of its argument arrays.

  The program normalises the sender indices (a negative index has the node count added), gathers the senders' node
  features, runs the edge stage on them and the edge features, adds each edge's message into its receiver's row of a
  zero array, and runs the node stage on the node features and those sums.  The weight matrix of each stage is handed
  over as its first 128 rows and its last 64 rows, each bias as a 1 × 64 row.  The gather and the scatter-add are kept
  as the host's own functions; the two stages are `edgeStage` and `nodeStage`.
-/
import proofs.«108677_j48928267436353_2_alg».proof.Proof.Gen.KernelIdeal
import proofs.«108677_j48928267436353_2_alg».proof.Proof.Stages

noncomputable section

namespace Cert.KernelIdeal.Term

open Cert.KernelIdeal Cert.KernelIdeal.Facts₀ Idealize.ShloMosaic Cert.SplitMlp

/-- The senders' node features: row e is the node-feature row of edge e's sender, a negative sender index first
    moved up by the node count. -/
def gathered (a0 : (⟨S50000x128, .f32⟩ : BufTy).Contents (Elt Ideal)) (a1 : (⟨S2x800000, .i32⟩ : BufTy).Contents (Elt Ideal)) :
    (⟨S800000x128, .f32⟩ : BufTy).Contents (Elt Ideal) :=
  Host.gather gather_S50000x128_S800000x1_S800000x128_1_0_n_n_0_1_1128 a0
    (broadcastInDim S800000x1 ![0] bcast_S800000_S800000x1_0
      (select
        (cmpi .slt (shapeCast _ (extractStridedSlice S1x800000 ![0, 0] a1 slices_S2x800000_S1x800000_0_0) shapeCasts_S1x800000_S800000)
          (broadcastInDim S800000 ![] bcast_S_S800000 (constantI S_ 32 0#32)))
        (addi (shapeCast _ (extractStridedSlice S1x800000 ![0, 0] a1 slices_S2x800000_S1x800000_0_0) shapeCasts_S1x800000_S800000)
          (broadcastInDim S800000 ![] bcast_S_S800000 (constantI S_ 32 50000#32)))
        (shapeCast _ (extractStridedSlice S1x800000 ![0, 0] a1 slices_S2x800000_S1x800000_0_0) shapeCasts_S1x800000_S800000)))

/-- The messages: the edge stage on the gathered features and the edge features. -/
def messages (a0 : (⟨S50000x128, .f32⟩ : BufTy).Contents (Elt Ideal)) (a1 : (⟨S2x800000, .i32⟩ : BufTy).Contents (Elt Ideal))
    (a2 : (⟨S800000x64, .f32⟩ : BufTy).Contents (Elt Ideal)) (a5 : (⟨S192x64, .f32⟩ : BufTy).Contents (Elt Ideal)) (a6 : (⟨S64, .f32⟩ : BufTy).Contents (Elt Ideal))
    (a7 : (⟨S64x64, .f32⟩ : BufTy).Contents (Elt Ideal)) (a8 : (⟨S64, .f32⟩ : BufTy).Contents (Elt Ideal)) : (⟨S800000x64, .f32⟩ : BufTy).Contents (Elt Ideal) :=
  edgeStage (gathered a0 a1) a2 (extractStridedSlice S128x64 ![0, 0] a5 slices_S192x64_S128x64_0_0)
    (extractStridedSlice S64x64 ![128, 0] a5 slices_S192x64_S64x64_128_0) (shapeCast S1x64 a6 shapeCasts_S64_S1x64) a7
    (shapeCast S1x64 a8 shapeCasts_S64_S1x64)

/-- The aggregated messages: each edge's message added into its receiver's row of a zero array. -/
def aggregated (a0 : (⟨S50000x128, .f32⟩ : BufTy).Contents (Elt Ideal)) (a1 : (⟨S2x800000, .i32⟩ : BufTy).Contents (Elt Ideal))
    (a2 : (⟨S800000x64, .f32⟩ : BufTy).Contents (Elt Ideal)) (a5 : (⟨S192x64, .f32⟩ : BufTy).Contents (Elt Ideal)) (a6 : (⟨S64, .f32⟩ : BufTy).Contents (Elt Ideal))
    (a7 : (⟨S64x64, .f32⟩ : BufTy).Contents (Elt Ideal)) (a8 : (⟨S64, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![1, 0] a1 slices_S2x800000_S1x800000_1_0) shapeCasts_S1x800000_S800000))
    (messages a0 a1 a2 a5 a6 a7 a8)

/-- The program's result: the node stage on the node features and the aggregated messages. -/
def result (a0 : (⟨S50000x128, .f32⟩ : BufTy).Contents (Elt Ideal)) (a1 : (⟨S2x800000, .i32⟩ : BufTy).Contents (Elt Ideal))
    (a2 : (⟨S800000x64, .f32⟩ : BufTy).Contents (Elt Ideal)) (a5 : (⟨S192x64, .f32⟩ : BufTy).Contents (Elt Ideal)) (a6 : (⟨S64, .f32⟩ : BufTy).Contents (Elt Ideal))
    (a7 : (⟨S64x64, .f32⟩ : BufTy).Contents (Elt Ideal)) (a8 : (⟨S64, .f32⟩ : BufTy).Contents (Elt Ideal)) (a9 : (⟨S192x64, .f32⟩ : BufTy).Contents (Elt Ideal))
    (a10 : (⟨S64, .f32⟩ : BufTy).Contents (Elt Ideal)) (a11 : (⟨S64x64, .f32⟩ : BufTy).Contents (Elt Ideal)) (a12 : (⟨S64, .f32⟩ : BufTy).Contents (Elt Ideal)) :
    (⟨S50000x64, .f32⟩ : BufTy).Contents (Elt Ideal) :=
  nodeStage a0 (aggregated a0 a1 a2 a5 a6 a7 a8) (extractStridedSlice S128x64 ![0, 0] a9 slices_S192x64_S128x64_0_0)
    (extractStridedSlice S64x64 ![128, 0] a9 slices_S192x64_S64x64_128_0) (shapeCast S1x64 a10 shapeCasts_S64_S1x64) a11
    (shapeCast S1x64 a12 shapeCasts_S64_S1x64)

end Cert.KernelIdeal.Term

end
-- ==== Proof.KernelValue.lean ====
/-
  The kernel program's result array is its term of the argument arrays.

  The run leaves at the result buffer the contents a fold through four stretches puts there.  Read backwards: the node
  stage's result array is `nodeStage` of the arrays it found on entry; those are what the second host stretch made of
  the contents the edge stage left — the node features as launched, the scatter-add of the message array into a zero
  array at the receiver indices, the second weight matrix's two row pieces and the two biases laid as rows —; the
  message array the edge stage left is `edgeStage` of the arrays IT found on entry; and those are what the first host
  stretch made of the launch contents — the gathered sender features, the edge features, the first weight matrix's two
  row pieces and its biases laid as rows.  A buffer no stretch writes is read back unchanged through every stretch.
-/
import proofs.«108677_j48928267436353_2_alg».proof.Proof.Gen.KernelIdeal.Frame
import proofs.«108677_j48928267436353_2_alg».proof.Proof.EdgeBlocks
import proofs.«108677_j48928267436353_2_alg».proof.Proof.NodeBlocks
import proofs.«108677_j48928267436353_2_alg».proof.Proof.KernelTerm
import Idealize.ShloMosaic.Lib.StableHlo.Run

noncomputable section

namespace Cert.KernelIdeal.Value

open Idealize.ShloMosaic Idealize.ShloMosaic.TcCoe Idealize.SL.Sem Idealize.ShloMosaic.StableHlo
open Cert.KernelIdeal Cert.KernelIdeal.Gen Cert.SplitMlp

variable (m : (ℓ : Loc nD τ sig) → Buf (Elt Ideal) ℓ) (ρ : Dev nD → PrngReg)

/-! ## After the first host stretch: what the edge stage finds -/

/-- The gathered sender features. -/
theorem entry0_gathered (c : Dev nD) : V1 m ρ c main_v10 = Term.gathered (m ((c : Thread nD τ).loc main_arg0)) (m ((c : Thread nD τ).loc main_arg1)) := by
  unfold Term.gathered
  show StableHlo.after hostOps0 (W0 m ρ c) (Proc.devRef .tc main_v10) = _
  after_results
  try rfl

/-- The edge features, as launched. -/
theorem entry0_edge_attr (c : Dev nD) : V1 m ρ c main_arg2 = (m ((c : Thread nD τ).loc main_arg2)) := by
  show StableHlo.after hostOps0 (W0 m ρ c) (Proc.devRef .tc main_arg2) = _
  after_results
  try rfl

/-- The first 128 rows of the first weight matrix. -/
theorem entry0_wa (c : Dev nD) : V1 m ρ c main_v11 = extractStridedSlice S128x64 ![0, 0] (m ((c : Thread nD τ).loc main_arg5)) Facts₀.slices_S192x64_S128x64_0_0 := by
  show StableHlo.after hostOps0 (W0 m ρ c) (Proc.devRef .tc main_v11) = _
  after_results
  try rfl

/-- The last 64 rows of the first weight matrix. -/
theorem entry0_wb (c : Dev nD) : V1 m ρ c main_v12 = extractStridedSlice S64x64 ![128, 0] (m ((c : Thread nD τ).loc main_arg5)) Facts₀.slices_S192x64_S64x64_128_0 := by
  show StableHlo.after hostOps0 (W0 m ρ c) (Proc.devRef .tc main_v12) = _
  after_results
  try rfl

/-- The first bias of the edge stage, laid as a row. -/
theorem entry0_c1 (c : Dev nD) : V1 m ρ c main_v13 = shapeCast S1x64 (m ((c : Thread nD τ).loc main_arg6)) Facts₀.shapeCasts_S64_S1x64 := by
  show StableHlo.after hostOps0 (W0 m ρ c) (Proc.devRef .tc main_v13) = _
  after_results
  try rfl

/-- The second layer's weights of the edge stage, as launched. -/
theorem entry0_w2 (c : Dev nD) : V1 m ρ c main_arg7 = (m ((c : Thread nD τ).loc main_arg7)) := by
  show StableHlo.after hostOps0 (W0 m ρ c) (Proc.devRef .tc main_arg7) = _
  after_results
  try rfl

/-- The second bias of the edge stage, laid as a row. -/
theorem entry0_c2 (c : Dev nD) : V1 m ρ c main_v14 = shapeCast S1x64 (m ((c : Thread nD τ).loc main_arg8)) Facts₀.shapeCasts_S64_S1x64 := by
  show StableHlo.after hostOps0 (W0 m ρ c) (Proc.devRef .tc main_v14) = _
  after_results
  try rfl

/-! ## Buffers the edge stage does not touch -/

/-- The receiver indices after the first host stretch: row 1 of the edge index array, as a vector. -/
theorem W1_receivers (c : Dev nD) :
    W1 m ρ c (Proc.devRef .tc main_v3)
      = shapeCast S800000 (extractStridedSlice S1x800000 ![1, 0] (m ((c : Thread nD τ).loc main_arg1)) Facts₀.slices_S2x800000_S1x800000_1_0) Facts₀.shapeCasts_S1x800000_S800000 := by
  show StableHlo.after hostOps0 (W0 m ρ c) (Proc.devRef .tc main_v3) = _
  after_results
  try rfl

/-- The edge stage does not touch them. -/
theorem W2_receivers (c : Dev nD) :
    W2 m ρ c (Proc.devRef .tc main_v3)
      = shapeCast S800000 (extractStridedSlice S1x800000 ![1, 0] (m ((c : Thread nD τ).loc main_arg1)) Facts₀.slices_S2x800000_S1x800000_1_0) Facts₀.shapeCasts_S1x800000_S800000 :=
  (W2_of_ne m ρ c main_v3 (by decide)).trans (W1_receivers m ρ c)

/-- Argument 0 is as launched after the first host stretch. -/
theorem W1_arg0 (c : Dev nD) : W1 m ρ c (Proc.devRef .tc main_arg0) = (m ((c : Thread nD τ).loc main_arg0)) := by
  show StableHlo.after hostOps0 (W0 m ρ c) (Proc.devRef .tc main_arg0) = _
  after_results
  try rfl

/-- and the edge stage does not touch it. -/
theorem W2_arg0 (c : Dev nD) : W2 m ρ c (Proc.devRef .tc main_arg0) = (m ((c : Thread nD τ).loc main_arg0)) :=
  (W2_of_ne m ρ c main_arg0 (by decide)).trans (W1_arg0 m ρ c)

/-- Argument 9 is as launched after the first host stretch. -/
theorem W1_arg9 (c : Dev nD) : W1 m ρ c (Proc.devRef .tc main_arg9) = (m ((c : Thread nD τ).loc main_arg9)) := by
  show StableHlo.after hostOps0 (W0 m ρ c) (Proc.devRef .tc main_arg9) = _
  after_results
  try rfl

/-- and the edge stage does not touch it. -/
theorem W2_arg9 (c : Dev nD) : W2 m ρ c (Proc.devRef .tc main_arg9) = (m ((c : Thread nD τ).loc main_arg9)) :=
  (W2_of_ne m ρ c main_arg9 (by decide)).trans (W1_arg9 m ρ c)

/-- Argument 10 is as launched after the first host stretch. -/
theorem W1_arg10 (c : Dev nD) : W1 m ρ c (Proc.devRef .tc main_arg10) = (m ((c : Thread nD τ).loc main_arg10)) := by
  show StableHlo.after hostOps0 (W0 m ρ c) (Proc.devRef .tc main_arg10) = _
  after_results
  try rfl

/-- and the edge stage does not touch it. -/
theorem W2_arg10 (c : Dev nD) : W2 m ρ c (Proc.devRef .tc main_arg10) = (m ((c : Thread nD τ).loc main_arg10)) :=
  (W2_of_ne m ρ c main_arg10 (by decide)).trans (W1_arg10 m ρ c)

/-- Argument 11 is as launched after the first host stretch. -/
theorem W1_arg11 (c : Dev nD) : W1 m ρ c (Proc.devRef .tc main_arg11) = (m ((c : Thread nD τ).loc main_arg11)) := by
  show StableHlo.after hostOps0 (W0 m ρ c) (Proc.devRef .tc main_arg11) = _
  after_results
  try rfl

/-- and the edge stage does not touch it. -/
theorem W2_arg11 (c : Dev nD) : W2 m ρ c (Proc.devRef .tc main_arg11) = (m ((c : Thread nD τ).loc main_arg11)) :=
  (W2_of_ne m ρ c main_arg11 (by decide)).trans (W1_arg11 m ρ c)

/-- Argument 12 is as launched after the first host stretch. -/
theorem W1_arg12 (c : Dev nD) : W1 m ρ c (Proc.devRef .tc main_arg12) = (m ((c : Thread nD τ).loc main_arg12)) := by
  show StableHlo.after hostOps0 (W0 m ρ c) (Proc.devRef .tc main_arg12) = _
  after_results
  try rfl

/-- and the edge stage does not touch it. -/
theorem W2_arg12 (c : Dev nD) : W2 m ρ c (Proc.devRef .tc main_arg12) = (m ((c : Thread nD τ).loc main_arg12)) :=
  (W2_of_ne m ρ c main_arg12 (by decide)).trans (W1_arg12 m ρ c)

/-! ## After the edge stage -/

/-- The message array the edge stage leaves is the messages of the launch contents. -/
theorem exit0_messages (c : Dev nD) : W2 m ρ c (Proc.devRef .tc main_v15) = Term.messages (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  unfold Term.messages
  refine ((W2_arr m ρ c 7).trans (EdgeStage.final (V1 m ρ) c)).trans ?_
  rw [entry0_gathered m ρ c, entry0_edge_attr m ρ c, entry0_wa m ρ c, entry0_wb m ρ c, entry0_c1 m ρ c, entry0_w2 m ρ c,
    entry0_c2 m ρ c]

/-! ## After the second host stretch: what the node stage finds -/

/-- The node features, as launched. -/
theorem entry1_x (c : Dev nD) : V3 m ρ c main_arg0 = (m ((c : Thread nD τ).loc main_arg0)) := by
  show StableHlo.after hostOps1 (W2 m ρ c) (Proc.devRef .tc main_arg0) = _
  after_results
  rw [W2_arg0 m ρ c]

/-- The aggregated messages: the messages added into a zero array at the receiver indices. -/
theorem entry1_agg (c : Dev nD) : V3 m ρ c main_v18 = Term.aggregated (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  unfold Term.aggregated
  show StableHlo.after hostOps1 (W2 m ρ c) (Proc.devRef .tc main_v18) = _
  after_results
  rw [exit0_messages m ρ c, W2_receivers m ρ c]

/-- The first 128 rows of the second weight matrix. -/
theorem entry1_wa (c : Dev nD) : V3 m ρ c main_v19 = extractStridedSlice S128x64 ![0, 0] (m ((c : Thread nD τ).loc main_arg9)) Facts₀.slices_S192x64_S128x64_0_0 := by
  show StableHlo.after hostOps1 (W2 m ρ c) (Proc.devRef .tc main_v19) = _
  after_results
  rw [W2_arg9 m ρ c]

/-- The last 64 rows of the second weight matrix. -/
theorem entry1_wb (c : Dev nD) : V3 m ρ c main_v20 = extractStridedSlice S64x64 ![128, 0] (m ((c : Thread nD τ).loc main_arg9)) Facts₀.slices_S192x64_S64x64_128_0 := by
  show StableHlo.after hostOps1 (W2 m ρ c) (Proc.devRef .tc main_v20) = _
  after_results
  rw [W2_arg9 m ρ c]

/-- The first bias of the node stage, laid as a row. -/
theorem entry1_c1 (c : Dev nD) : V3 m ρ c main_v21 = shapeCast S1x64 (m ((c : Thread nD τ).loc main_arg10)) Facts₀.shapeCasts_S64_S1x64 := by
  show StableHlo.after hostOps1 (W2 m ρ c) (Proc.devRef .tc main_v21) = _
  after_results
  rw [W2_arg10 m ρ c]
  rfl

/-- The second layer's weights of the node stage, as launched. -/
theorem entry1_w2 (c : Dev nD) : V3 m ρ c main_arg11 = (m ((c : Thread nD τ).loc main_arg11)) := by
  show StableHlo.after hostOps1 (W2 m ρ c) (Proc.devRef .tc main_arg11) = _
  after_results
  rw [W2_arg11 m ρ c]

/-- The second bias of the node stage, laid as a row. -/
theorem entry1_c2 (c : Dev nD) : V3 m ρ c main_v22 = shapeCast S1x64 (m ((c : Thread nD τ).loc main_arg12)) Facts₀.shapeCasts_S64_S1x64 := by
  show StableHlo.after hostOps1 (W2 m ρ c) (Proc.devRef .tc main_v22) = _
  after_results
  rw [W2_arg12 m ρ c]
  rfl

/-! ## The result -/

/-- The contents the run leaves at the result buffer are the program's term of the launch contents. -/
theorem result_eq (c : Dev nD) :
    W4 m ρ c (Proc.devRef .tc main_v23) = Term.result (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Term.result
  refine ((W4_arr m ρ c 7).trans (NodeStage.final (V3 m ρ) c)).trans ?_
  rw [entry1_x m ρ c, entry1_agg m ρ c, entry1_wa m ρ c, entry1_wb m ρ c, entry1_c1 m ρ c, entry1_w2 m ρ c,
    entry1_c2 m ρ c]

end Cert.KernelIdeal.Value

end
-- ==== Proof.LibChunkSum.lean ====
/-
  A finite sum taken chunk by chunk.

  The first `n * B` numbers are `n` consecutive chunks of `B` consecutive numbers, position `j` of chunk `c` being
  the number `c * B + j`; in a commutative monoid a sum over all of them is the sum over the chunks of each chunk's
  sum.  And a sum over nine terms is the nine added one after the other onto zero, from the left — the shape an
  accumulator that starts at zero and takes nine partial sums in turn ends with.
-/
import Mathlib.Algebra.BigOperators.Fin
import Mathlib.Logic.Equiv.Fin.Basic

namespace Cert.ChunkSum

variable {M : Type*} [AddCommMonoid M]

/-- The sum over `Fin (n * B)` is the sum over the `n` chunks of the sum over each chunk's `B` positions. -/
theorem sum_fin_chunks (n B : ℕ) (G : Fin (n * B) → M) :
    ∑ k : Fin (n * B), G k
      = ∑ c : Fin n, ∑ j : Fin B, G ⟨c.val * B + j.val, by
          have hc := c.isLt; have hj := j.isLt
          have h1 : c.val * B + j.val < (c.val + 1) * B := by rw [Nat.succ_mul]; omega
          exact lt_of_lt_of_le h1 (Nat.mul_le_mul_right B hc)⟩ := by
  rw [← Equiv.sum_comp finProdFinEquiv G, Fintype.sum_prod_type]
  refine Finset.sum_congr rfl fun c _ => Finset.sum_congr rfl fun j _ => congrArg G (Fin.ext ?_)
  show j.val + B * c.val = c.val * B + j.val
  rw [Nat.mul_comm, Nat.add_comm]

/-- Nine terms added one after the other onto zero, from the left, are their sum. -/
theorem sum_fin_nine (s : Fin 9 → M) :
    ∑ c : Fin 9, s c = ((((((((0 + s 0) + s 1) + s 2) + s 3) + s 4) + s 5) + s 6) + s 7) + s 8 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

end Cert.ChunkSum
-- ==== Proof.LibBlockDiag.lean ====
/-
  Block-diagonal weights for two rows packed side by side: the matrix read at coordinates, and the sum law.

  Two pieces laid side by side along the columns, one on top of the other along the rows, or two vectors end to end:
  an entry of the result is an entry of the piece its coordinate along the joined axis falls in, at that coordinate
  less the extent of the pieces before it.  From these, the block-diagonal matrix  [[Wᵀ, Z], [Z, Wᵀ]]  built from an
  O × I matrix W and a filler Z: for an input position k and an output position o, entries (k, o) and (I + k, O + o)
  are W (o, k), and entries (k, O + o) and (I + k, o) are the filler's.  And the row  [b, b]  of a vector b of B
  entries laid as a 1 × 2B matrix: entries (0, o) and (0, B + o) are b o.

  The sum law, on the extended reals.  A vector of 2·B entries is two chunks of B.  Against a column that is zero on
  one chunk and a given column W on the other, the sum of products over all 2·B positions is the sum over the B
  positions of the live chunk: the other chunk contributes x · 0 = 0 for every extended real x, infinite or not.
-/
import Idealize.ShloMosaic.Lib.ValueIdx
import Idealize.ShloMosaic.Lib.ValueLayout
import Idealize.ShloMosaic.Lib.Pipeline.Value
import Mathlib.Data.EReal.Operations
import proofs.«108677_j48928267436353_2_alg».proof.Proof.LibChunkSum

namespace Cert.Lib.BlockDiag

open Idealize.ShloMosaic Idealize.ShloMosaic.ValueIdx

variable {α : Type}

/-- Side by side along the columns, a column of the first piece. -/
theorem cols_left {A B1 B2 C : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, C]⟩ 1) (p : Fin A) (q : Fin C) (q₁ : Fin B1)
    (hq : q₁.val = q.val) :
    concatenate ⟨2, ![A, C]⟩ 1 [⟨⟨2, ![A, B1]⟩, x₁⟩, ⟨⟨2, ![A, B2]⟩, x₂⟩] h (ix2 p q) = x₁ (ix2 p q₁) := by
  refine concatenate_pair_apply_left (1 : Fin 2) x₁ x₂ h (ix2 p q) rfl (ix2 p q₁) fun b => ?_
  match b with
  | ⟨0, _⟩ => rfl
  | ⟨1, _⟩ => exact hq

/-- Side by side along the columns, a column of the second piece. -/
theorem cols_right {A B1 B2 C : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, C]⟩ 1) (p : Fin A) (q : Fin C) (q₂ : Fin B2)
    (hq : q₂.val + B1 = q.val) :
    concatenate ⟨2, ![A, C]⟩ 1 [⟨⟨2, ![A, B1]⟩, x₁⟩, ⟨⟨2, ![A, B2]⟩, x₂⟩] h (ix2 p q) = x₂ (ix2 p q₂) := by
  refine concatenate_pair_apply_right (1 : Fin 2) x₁ x₂ h (ix2 p q) rfl rfl (ix2 p q₂) (fun b hb => ?_) ?_
  · match b with
    | ⟨0, _⟩ => rfl
    | ⟨1, _⟩ => exact absurd rfl hb
  · exact hq

/-- One on top of the other along the rows, a row of the first piece. -/
theorem rows_top {A1 A2 B C : ℕ} (x₁ : (⟨2, ![A1, B]⟩ : Shape).Idx → α) (x₂ : (⟨2, ![A2, B]⟩ : Shape).Idx → α)
    (h : Shape.Concatenates [⟨2, ![A1, B]⟩, ⟨2, ![A2, B]⟩] ⟨2, ![C, B]⟩ 0) (p : Fin C) (q : Fin B) (p₁ : Fin A1)
    (hp : p₁.val = p.val) :
    concatenate ⟨2, ![C, B]⟩ 0 [⟨⟨2, ![A1, B]⟩, x₁⟩, ⟨⟨2, ![A2, B]⟩, x₂⟩] h (ix2 p q) = x₁ (ix2 p₁ q) := by
  refine concatenate_pair_apply_left (0 : Fin 2) x₁ x₂ h (ix2 p q) rfl (ix2 p₁ q) fun b => ?_
  match b with
  | ⟨0, _⟩ => exact hp
  | ⟨1, _⟩ => rfl

/-- One on top of the other along the rows, a row of the second piece. -/
theorem rows_bottom {A1 A2 B C : ℕ} (x₁ : (⟨2, ![A1, B]⟩ : Shape).Idx → α) (x₂ : (⟨2, ![A2, B]⟩ : Shape).Idx → α)
    (h : Shape.Concatenates [⟨2, ![A1, B]⟩, ⟨2, ![A2, B]⟩] ⟨2, ![C, B]⟩ 0) (p : Fin C) (q : Fin B) (p₂ : Fin A2)
    (hp : p₂.val + A1 = p.val) :
    concatenate ⟨2, ![C, B]⟩ 0 [⟨⟨2, ![A1, B]⟩, x₁⟩, ⟨⟨2, ![A2, B]⟩, x₂⟩] h (ix2 p q) = x₂ (ix2 p₂ q) := by
  refine concatenate_pair_apply_right (0 : Fin 2) x₁ x₂ h (ix2 p q) rfl rfl (ix2 p₂ q) (fun b hb => ?_) ?_
  · match b with
    | ⟨0, _⟩ => exact absurd rfl hb
    | ⟨1, _⟩ => rfl
  · exact hp

/-- Two vectors end to end, an entry of the first. -/
theorem vec_left {B1 B2 C : ℕ} (x₁ : (⟨1, ![B1]⟩ : Shape).Idx → α) (x₂ : (⟨1, ![B2]⟩ : Shape).Idx → α)
    (h : Shape.Concatenates [⟨1, ![B1]⟩, ⟨1, ![B2]⟩] ⟨1, ![C]⟩ 0) (q : Fin C) (q₁ : Fin B1) (hq : q₁.val = q.val) :
    concatenate ⟨1, ![C]⟩ 0 [⟨⟨1, ![B1]⟩, x₁⟩, ⟨⟨1, ![B2]⟩, x₂⟩] h (ix1 q) = x₁ (ix1 q₁) := by
  refine concatenate_pair_apply_left (0 : Fin 1) x₁ x₂ h (ix1 q) rfl (ix1 q₁) fun b => ?_
  match b with
  | ⟨0, _⟩ => exact hq

/-- Two vectors end to end, an entry of the second. -/
theorem vec_right {B1 B2 C : ℕ} (x₁ : (⟨1, ![B1]⟩ : Shape).Idx → α) (x₂ : (⟨1, ![B2]⟩ : Shape).Idx → α)
    (h : Shape.Concatenates [⟨1, ![B1]⟩, ⟨1, ![B2]⟩] ⟨1, ![C]⟩ 0) (q : Fin C) (q₂ : Fin B2) (hq : q₂.val + B1 = q.val) :
    concatenate ⟨1, ![C]⟩ 0 [⟨⟨1, ![B1]⟩, x₁⟩, ⟨⟨1, ![B2]⟩, x₂⟩] h (ix1 q) = x₂ (ix1 q₂) := by
  refine concatenate_pair_apply_right (0 : Fin 1) x₁ x₂ h (ix1 q) rfl rfl (ix1 q₂) (fun b hb => ?_) ?_
  · match b with
    | ⟨0, _⟩ => exact absurd rfl hb
  · exact hq

/-! ## The block-diagonal matrix of a transposed matrix -/

section BlockDiag

variable {I O I2 O2 : ℕ} (W : (⟨2, ![O, I]⟩ : Shape).Idx → α) (Z : (⟨2, ![I, O]⟩ : Shape).Idx → α)
  (hT : (⟨2, ![O, I]⟩ : Shape).Transposes [1, 0] ⟨2, ![I, O]⟩)
  (hc : Shape.Concatenates [⟨2, ![I, O]⟩, ⟨2, ![I, O]⟩] ⟨2, ![I, O2]⟩ 1)
  (hr : Shape.Concatenates [⟨2, ![I, O2]⟩, ⟨2, ![I, O2]⟩] ⟨2, ![I2, O2]⟩ 0)

/-- The matrix [[Wᵀ, Z], [Z, Wᵀ]]. -/
def blockDiag : (⟨2, ![I2, O2]⟩ : Shape).Idx → α :=
  concatenate ⟨2, ![I2, O2]⟩ 0
    [⟨⟨2, ![I, O2]⟩, concatenate ⟨2, ![I, O2]⟩ 1 [⟨⟨2, ![I, O]⟩, transpose ⟨2, ![I, O]⟩ [1, 0] W hT⟩, ⟨⟨2, ![I, O]⟩, Z⟩] hc⟩,
     ⟨⟨2, ![I, O2]⟩, concatenate ⟨2, ![I, O2]⟩ 1 [⟨⟨2, ![I, O]⟩, Z⟩, ⟨⟨2, ![I, O]⟩, transpose ⟨2, ![I, O]⟩ [1, 0] W hT⟩] hc⟩] hr

/-- Top left: the transposed matrix. -/
theorem blockDiag_tl (p : Fin I2) (q : Fin O2) (k : Fin I) (o : Fin O) (hp : k.val = p.val) (hq : o.val = q.val) :
    blockDiag W Z hT hc hr (ix2 p q) = W (ix2 o k) := by
  unfold blockDiag
  rw [rows_top _ _ hr p q k hp, cols_left _ _ hc k q o hq, transpose_ix2_apply]

/-- Top right: the filler. -/
theorem blockDiag_tr (p : Fin I2) (q : Fin O2) (k : Fin I) (o : Fin O) (hp : k.val = p.val) (hq : o.val + O = q.val) :
    blockDiag W Z hT hc hr (ix2 p q) = Z (ix2 k o) := by
  unfold blockDiag
  rw [rows_top _ _ hr p q k hp, cols_right _ _ hc k q o hq]

/-- Bottom left: the filler. -/
theorem blockDiag_bl (p : Fin I2) (q : Fin O2) (k : Fin I) (o : Fin O) (hp : k.val + I = p.val) (hq : o.val = q.val) :
    blockDiag W Z hT hc hr (ix2 p q) = Z (ix2 k o) := by
  unfold blockDiag
  rw [rows_bottom _ _ hr p q k hp, cols_left _ _ hc k q o hq]

/-- Bottom right: the transposed matrix. -/
theorem blockDiag_br (p : Fin I2) (q : Fin O2) (k : Fin I) (o : Fin O) (hp : k.val + I = p.val) (hq : o.val + O = q.val) :
    blockDiag W Z hT hc hr (ix2 p q) = W (ix2 o k) := by
  unfold blockDiag
  rw [rows_bottom _ _ hr p q k hp, cols_right _ _ hc k q o hq, transpose_ix2_apply]

end BlockDiag

/-! ## A vector twice, as one row -/

section TwiceRow

variable {B C : ℕ} (b : (⟨1, ![B]⟩ : Shape).Idx → α)
  (hc : Shape.Concatenates [⟨1, ![B]⟩, ⟨1, ![B]⟩] ⟨1, ![C]⟩ 0) (hs : (⟨1, ![C]⟩ : Shape).ShapeCasts ⟨2, ![1, C]⟩)

/-- The row [b, b]. -/
def twiceRow : (⟨2, ![1, C]⟩ : Shape).Idx → α :=
  shapeCast ⟨2, ![1, C]⟩ (concatenate ⟨1, ![C]⟩ 0 [⟨⟨1, ![B]⟩, b⟩, ⟨⟨1, ![B]⟩, b⟩] hc) hs

theorem twiceRow_left (u : Fin 1) (q : Fin C) (o : Fin B) (hq : o.val = q.val) : twiceRow b hc hs (ix2 u q) = b (ix1 o) := by
  unfold twiceRow
  rw [shapeCast_a_1a_apply, vec_left _ _ hc q o hq]

theorem twiceRow_right (u : Fin 1) (q : Fin C) (o : Fin B) (hq : o.val + B = q.val) : twiceRow b hc hs (ix2 u q) = b (ix1 o) := by
  unfold twiceRow
  rw [shapeCast_a_1a_apply, vec_right _ _ hc q o hq]

end TwiceRow

/-! ## The sum law -/

/-- A sum over two chunks of B positions is the first chunk's sum plus the second chunk's. -/
theorem sum_two_chunks {B : ℕ} (f : Fin (2 * B) → EReal) :
    ∑ i, f i = (∑ k : Fin B, f ⟨k.val, by have := k.isLt; omega⟩) + ∑ k : Fin B, f ⟨B + k.val, by have := k.isLt; omega⟩ := by
  rw [Cert.ChunkSum.sum_fin_chunks 2 B f, Fin.sum_univ_two]
  congr 1
  · exact Finset.sum_congr rfl fun k _ => congrArg f (Fin.ext (by show 0 * B + k.val = k.val; omega))
  · exact Finset.sum_congr rfl fun k _ => congrArg f (Fin.ext (by show 1 * B + k.val = B + k.val; omega))

/-- Two packed rows against a block-diagonal column: the column M is W on chunk s and zero on the other chunk, so the
    sum over all 2·B positions is the sum over chunk s against W. -/
theorem sum_blockdiag {B : ℕ} (x M : Fin (2 * B) → EReal) (W : Fin B → EReal) (s : Fin 2)
    (h0 : ∀ k : Fin B, M ⟨k.val, by have := k.isLt; omega⟩ = if s.val = 0 then W k else 0)
    (h1 : ∀ k : Fin B, M ⟨B + k.val, by have := k.isLt; omega⟩ = if s.val = 1 then W k else 0) :
    ∑ i, x i * M i = ∑ k : Fin B, x ⟨s.val * B + k.val, by
      have := k.isLt; have := s.isLt
      have h : s.val * B + k.val < (s.val + 1) * B := by rw [Nat.succ_mul]; omega
      exact lt_of_lt_of_le h (by rw [show 2 * B = (1 + 1) * B by ring]; exact Nat.mul_le_mul_right B (by omega))⟩ * W k := by
  rw [sum_two_chunks]
  match s with
  | ⟨0, _⟩ =>
    have e1 : ∀ k : Fin B, x ⟨B + k.val, by have := k.isLt; omega⟩ * M ⟨B + k.val, by have := k.isLt; omega⟩ = 0 := fun k => by
      rw [h1 k, if_neg (show ¬ (0 : ℕ) = 1 by decide), mul_zero]
    rw [Finset.sum_congr rfl fun k _ => e1 k, Finset.sum_const_zero, add_zero]
    refine Finset.sum_congr rfl fun k _ => ?_
    rw [h0 k, if_pos rfl]
    exact congrArg (fun i => x i * W k) (Fin.ext (by show k.val = 0 * B + k.val; omega))
  | ⟨1, _⟩ =>
    have e0 : ∀ k : Fin B, x ⟨k.val, by have := k.isLt; omega⟩ * M ⟨k.val, by have := k.isLt; omega⟩ = 0 := fun k => by
      rw [h0 k, if_neg (show ¬ (1 : ℕ) = 0 by decide), mul_zero]
    rw [Finset.sum_congr rfl fun k _ => e0 k, Finset.sum_const_zero, zero_add]
    refine Finset.sum_congr rfl fun k _ => ?_
    rw [h1 k, if_pos rfl]
    exact congrArg (fun i => x i * W k) (Fin.ext (by show B + k.val = 1 * B + k.val; omega))

end Cert.Lib.BlockDiag
-- ==== Proof.RefEdge.lean ====
/-
  The reference's message array is the edge stage's function of the gathered node features.

  The reference joins the gathered node features (800000 × 128) and the edge features (800000 × 64) side by side into
  an 800000 × 192 array, multiplies by the 192 × 64 weight matrix, adds the first bias along the rows, clamps at zero,
  multiplies by the second layer's weights, adds the second bias and clamps again.  Entry (r, q), read one operation
  at a time: the product's sum over the 192 joined positions splits into the first 128, where the joined row reads
  the gathered features and the weight matrix its first 128 rows, and the last 64, where it reads the edge features
  and the weight matrix its last 64 rows.  That is the perceptron row with the weight matrix cut in two.  The gather
  itself is never opened: the gathered features enter as one array.
-/
import proofs.«108677_j48928267436353_2_alg».proof.Proof.Gen.ReferenceIdeal.Read
import proofs.«108677_j48928267436353_2_alg».proof.Proof.Stages
import proofs.«108677_j48928267436353_2_alg».proof.Proof.LibBlockDiag
import Idealize.ShloMosaic.Lib.ValueLayout
import Idealize.ShloMosaic.Lib.Pipeline.Value
import Idealize.ShloMosaic.Lib.ValueIdx

noncomputable section

namespace Cert.ReferenceIdeal.EdgeRef

open Cert.ReferenceIdeal Cert.ReferenceIdeal.Read Idealize.ShloMosaic Idealize.ShloMosaic.ValueIdx Cert.SplitMlp

/-! ## The composed index maps at coordinates -/

theorem lhs17 (r : Fin 800000) (q k : Fin 64) : lidx_main_v17 (ix2 r q) k = ix2 r k :=
  funext fun a => Fin.ext (by match a with | ⟨0, _⟩ => rfl | ⟨1, _⟩ => rfl)
theorem rhs17 (r : Fin 800000) (q k : Fin 64) : ridx_main_v17 (ix2 r q) k = ix2 k q :=
  funext fun a => Fin.ext (by match a with | ⟨0, _⟩ => rfl | ⟨1, _⟩ => rfl)
theorem lhs12 (r : Fin 800000) (k : Fin 64) (k' : Fin 192) : lidx_main_v12 (ix2 r k) k' = ix2 r k' :=
  funext fun a => Fin.ext (by match a with | ⟨0, _⟩ => rfl | ⟨1, _⟩ => rfl)
theorem rhs12 (r : Fin 800000) (k : Fin 64) (k' : Fin 192) : ridx_main_v12 (ix2 r k) k' = ix2 k' k :=
  funext fun a => Fin.ext (by match a with | ⟨0, _⟩ => rfl | ⟨1, _⟩ => rfl)
theorem bias1 (r : Fin 800000) (k : Fin 64) : idx_main_v13 (idx_main_v14 (ix2 r k)) = ix1 k :=
  funext fun a => Fin.ext (by match a with | ⟨0, _⟩ => rfl)
theorem bias2 (r : Fin 800000) (q : Fin 64) : idx_main_v18 (idx_main_v19 (ix2 r q)) = ix1 q :=
  funext fun a => Fin.ext (by match a with | ⟨0, _⟩ => rfl)

variable (x0 : (⟨S50000x128, .f32⟩ : BufTy).Contents (Elt Ideal)) (x1 : (⟨S2x800000, .i32⟩ : BufTy).Contents (Elt Ideal))
  (x2 : (⟨S800000x64, .f32⟩ : BufTy).Contents (Elt Ideal)) (x5 : (⟨S192x64, .f32⟩ : BufTy).Contents (Elt Ideal))
  (x6 : (⟨S64, .f32⟩ : BufTy).Contents (Elt Ideal)) (x7 : (⟨S64x64, .f32⟩ : BufTy).Contents (Elt Ideal)) (x8 : (⟨S64, .f32⟩ : BufTy).Contents (Elt Ideal))

/-! ## The joined array read at either piece -/

/-- A column among the first 128 of the joined row is a column of the gathered features. -/
theorem joined_left (r : Fin 800000) (j : Fin 128) :
    val_main_v11 (F := Ideal) x0 x1 x2 (ix2 r (⟨j.val, by have := j.isLt; omega⟩ : Fin 192))
      = val_main_v10 (F := Ideal) x0 x1 (ix2 r j) := by
  unfold val_main_v11
  exact Cert.Lib.BlockDiag.cols_left _ _ _ r _ j rfl

/-- A column among the last 64 of the joined row is a column of the edge features. -/
theorem joined_right (r : Fin 800000) (j : Fin 64) :
    val_main_v11 (F := Ideal) x0 x1 x2 (ix2 r (⟨128 + j.val, by have := j.isLt; omega⟩ : Fin 192)) = x2 (ix2 r j) := by
  unfold val_main_v11
  exact Cert.Lib.BlockDiag.cols_right _ _ _ r _ j (by show j.val + 128 = 128 + j.val; omega)

/-! ## The message array -/

/-- Entry (r, q) of the reference's message array is the perceptron row of row r of the gathered features and of the
    edge features, the weight matrix read as its first 128 and its last 64 rows. -/
theorem msg_apply (r : Fin 800000) (q : Fin 64) :
    val_main_v21 (F := Ideal) x0 x1 x2 x5 x6 x7 x8 (ix2 r q)
      = row (fun j => val_main_v10 (F := Ideal) x0 x1 (ix2 r j)) (fun j => x2 (ix2 r j))
          (fun j k => x5 (ix2 (⟨j.val, by have := j.isLt; omega⟩ : Fin 192) k))
          (fun j k => x5 (ix2 (⟨128 + j.val, by have := j.isLt; omega⟩ : Fin 192) k))
          (fun k => x6 (ix1 k)) (fun k n => x7 (ix2 k n)) (fun n => x8 (ix1 n)) q := by
  unfold row
  simp only [val_main_v21_apply, val_main_v20_apply, val_main_v17_apply, val_main_v16_apply, val_main_v15_apply,
    val_main_v12_apply, val_main_v14_apply, val_main_v13_apply, val_main_v19_apply, val_main_v18_apply,
    val_main_call0_v0_apply, val_main_call0_cst_apply, val_main_call1_v0_apply, val_main_call1_cst_apply,
    Ideal.maximumf_def, Ideal.addf_def, Ideal.ofBits_def, Ideal.ofBits_zero_f32,
    lhs17, rhs17, lhs12, rhs12, bias1, bias2, sum_joined, joined_left, joined_right]

/-- The reference's message array is `edgeStage` of the gathered features, the edge features, the weight matrix's
    two row pieces, the second layer's weights and the two biases laid as rows. -/
theorem msg_eq (h1 : S192x64.Slices ![0, 0] ⟨2, ![128, 64]⟩) (h2 : S192x64.Slices ![128, 0] ⟨2, ![64, 64]⟩)
    (h3 : S64.ShapeCasts ⟨2, ![1, 64]⟩) :
    val_main_v21 (F := Ideal) x0 x1 x2 x5 x6 x7 x8
      = edgeStage (val_main_v10 (F := Ideal) x0 x1) x2 (extractStridedSlice ⟨2, ![128, 64]⟩ ![0, 0] x5 h1)
          (extractStridedSlice ⟨2, ![64, 64]⟩ ![128, 0] x5 h2) (shapeCast ⟨2, ![1, 64]⟩ x6 h3) x7
          (shapeCast ⟨2, ![1, 64]⟩ x8 h3) := by
  funext i
  obtain ⟨r, q, rfl⟩ : ∃ (r : Fin 800000) (q : Fin 64), i = ix2 r q := ⟨i 0, i 1, eq_ix2 i⟩
  rw [edgeStage_ix2, msg_apply]
  exact row_congr rfl rfl
    (funext fun j => funext fun k => (extractStridedSlice_apply ![0, 0] x5 h1 (ix2 j k) (ix2 ⟨j.val, by have := j.isLt; omega⟩ k)
      fun a => by match a with
        | ⟨0, _⟩ => show j.val = 0 + j.val; omega
        | ⟨1, _⟩ => show k.val = 0 + k.val; omega).symm)
    (funext fun j => funext fun k => (extractStridedSlice_apply ![128, 0] x5 h2 (ix2 j k) (ix2 ⟨128 + j.val, by have := j.isLt; omega⟩ k)
      fun a => by match a with
        | ⟨0, _⟩ => show 128 + j.val = 128 + j.val; rfl
        | ⟨1, _⟩ => show k.val = 0 + k.val; omega).symm)
    (funext fun k => (shapeCast_a_1a_apply x6 h3 0 k).symm) rfl
    (funext fun n => (shapeCast_a_1a_apply x8 h3 0 n).symm) q

end Cert.ReferenceIdeal.EdgeRef

end
-- ==== Proof.RefNode.lean ====
/-
  The reference's result is the node stage's function of the node features and the aggregated messages.

  The reference joins the node features (50000 × 128) and the aggregated messages (50000 × 64) side by side into a
  50000 × 192 array, multiplies by the 192 × 64 weight matrix, adds the first bias along the rows, clamps at zero,
  multiplies by the second layer's weights, adds the second bias and clamps again.  Entry (r, q), read one operation
  at a time: the product's sum over the 192 joined positions splits into the first 128, where the joined row reads
  the node features and the weight matrix its first 128 rows, and the last 64, where it reads the aggregated messages
  and the weight matrix its last 64 rows.  That is the perceptron row with the weight matrix cut in two.  The
  scatter-add that aggregates the messages is never opened: the aggregated messages enter as one array.
-/
import proofs.«108677_j48928267436353_2_alg».proof.Proof.Gen.ReferenceIdeal.Read
import proofs.«108677_j48928267436353_2_alg».proof.Proof.Stages
import proofs.«108677_j48928267436353_2_alg».proof.Proof.LibBlockDiag
import Idealize.ShloMosaic.Lib.ValueLayout
import Idealize.ShloMosaic.Lib.Pipeline.Value
import Idealize.ShloMosaic.Lib.ValueIdx

noncomputable section

namespace Cert.ReferenceIdeal.NodeRef

open Cert.ReferenceIdeal Cert.ReferenceIdeal.Read Idealize.ShloMosaic Idealize.ShloMosaic.ValueIdx Cert.SplitMlp

/-! ## The composed index maps at coordinates -/

theorem lhs31 (r : Fin 50000) (q k : Fin 64) : lidx_main_v31 (ix2 r q) k = ix2 r k :=
  funext fun a => Fin.ext (by match a with | ⟨0, _⟩ => rfl | ⟨1, _⟩ => rfl)
theorem rhs31 (r : Fin 50000) (q k : Fin 64) : ridx_main_v31 (ix2 r q) k = ix2 k q :=
  funext fun a => Fin.ext (by match a with | ⟨0, _⟩ => rfl | ⟨1, _⟩ => rfl)
theorem lhs26 (r : Fin 50000) (k : Fin 64) (k' : Fin 192) : lidx_main_v26 (ix2 r k) k' = ix2 r k' :=
  funext fun a => Fin.ext (by match a with | ⟨0, _⟩ => rfl | ⟨1, _⟩ => rfl)
theorem rhs26 (r : Fin 50000) (k : Fin 64) (k' : Fin 192) : ridx_main_v26 (ix2 r k) k' = ix2 k' k :=
  funext fun a => Fin.ext (by match a with | ⟨0, _⟩ => rfl | ⟨1, _⟩ => rfl)
theorem bias1 (r : Fin 50000) (k : Fin 64) : idx_main_v27 (idx_main_v28 (ix2 r k)) = ix1 k :=
  funext fun a => Fin.ext (by match a with | ⟨0, _⟩ => rfl)
theorem bias2 (r : Fin 50000) (q : Fin 64) : idx_main_v32 (idx_main_v33 (ix2 r q)) = ix1 q :=
  funext fun a => Fin.ext (by match a with | ⟨0, _⟩ => rfl)

variable (x0 : (⟨S50000x128, .f32⟩ : BufTy).Contents (Elt Ideal)) (x1 : (⟨S2x800000, .i32⟩ : BufTy).Contents (Elt Ideal))
  (x2 : (⟨S800000x64, .f32⟩ : BufTy).Contents (Elt Ideal)) (x5 : (⟨S192x64, .f32⟩ : BufTy).Contents (Elt Ideal))
  (x6 : (⟨S64, .f32⟩ : BufTy).Contents (Elt Ideal)) (x7 : (⟨S64x64, .f32⟩ : BufTy).Contents (Elt Ideal)) (x8 : (⟨S64, .f32⟩ : BufTy).Contents (Elt Ideal))
  (x9 : (⟨S192x64, .f32⟩ : BufTy).Contents (Elt Ideal)) (x10 : (⟨S64, .f32⟩ : BufTy).Contents (Elt Ideal)) (x11 : (⟨S64x64, .f32⟩ : BufTy).Contents (Elt Ideal))
  (x12 : (⟨S64, .f32⟩ : BufTy).Contents (Elt Ideal))

/-! ## The joined array read at either piece -/

/-- A column among the first 128 of the joined row is a column of the node features. -/
theorem joined_left (r : Fin 50000) (j : Fin 128) :
    val_main_v25 (F := Ideal) x0 x1 x2 x5 x6 x7 x8 (ix2 r (⟨j.val, by have := j.isLt; omega⟩ : Fin 192)) = x0 (ix2 r j) := by
  unfold val_main_v25
  exact Cert.Lib.BlockDiag.cols_left _ _ _ r _ j rfl

/-- A column among the last 64 of the joined row is a column of the aggregated messages. -/
theorem joined_right (r : Fin 50000) (j : Fin 64) :
    val_main_v25 (F := Ideal) x0 x1 x2 x5 x6 x7 x8 (ix2 r (⟨128 + j.val, by have := j.isLt; omega⟩ : Fin 192))
      = val_main_v24 (F := Ideal) x0 x1 x2 x5 x6 x7 x8 (ix2 r j) := by
  unfold val_main_v25
  exact Cert.Lib.BlockDiag.cols_right _ _ _ r _ j (by show j.val + 128 = 128 + j.val; omega)

/-! ## The result -/

/-- Entry (r, q) of the reference's result is the perceptron row of row r of the node features and of the aggregated
    messages, the weight matrix read as its first 128 and its last 64 rows. -/
theorem out_apply (r : Fin 50000) (q : Fin 64) :
    val_main_v35 (F := Ideal) x0 x1 x2 x5 x6 x7 x8 x9 x10 x11 x12 (ix2 r q)
      = row (fun j => x0 (ix2 r j)) (fun j => val_main_v24 (F := Ideal) x0 x1 x2 x5 x6 x7 x8 (ix2 r j))
          (fun j k => x9 (ix2 (⟨j.val, by have := j.isLt; omega⟩ : Fin 192) k))
          (fun j k => x9 (ix2 (⟨128 + j.val, by have := j.isLt; omega⟩ : Fin 192) k))
          (fun k => x10 (ix1 k)) (fun k n => x11 (ix2 k n)) (fun n => x12 (ix1 n)) q := by
  unfold row
  simp only [val_main_v35_apply, val_main_v34_apply, val_main_v31_apply, val_main_v30_apply, val_main_v29_apply,
    val_main_v26_apply, val_main_v28_apply, val_main_v27_apply, val_main_v33_apply, val_main_v32_apply,
    val_main_call2_v0_apply, val_main_call2_cst_apply, val_main_call3_v0_apply, val_main_call3_cst_apply,
    Ideal.maximumf_def, Ideal.addf_def, Ideal.ofBits_def, Ideal.ofBits_zero_f32,
    lhs31, rhs31, lhs26, rhs26, bias1, bias2, sum_joined, joined_left, joined_right]

/-- The reference's result is `nodeStage` of the node features, the aggregated messages, the weight matrix's two row
    pieces, the second layer's weights and the two biases laid as rows. -/
theorem out_eq (h1 : S192x64.Slices ![0, 0] ⟨2, ![128, 64]⟩) (h2 : S192x64.Slices ![128, 0] ⟨2, ![64, 64]⟩)
    (h3 : S64.ShapeCasts ⟨2, ![1, 64]⟩) :
    val_main_v35 (F := Ideal) x0 x1 x2 x5 x6 x7 x8 x9 x10 x11 x12
      = nodeStage x0 (val_main_v24 (F := Ideal) x0 x1 x2 x5 x6 x7 x8) (extractStridedSlice ⟨2, ![128, 64]⟩ ![0, 0] x9 h1)
          (extractStridedSlice ⟨2, ![64, 64]⟩ ![128, 0] x9 h2) (shapeCast ⟨2, ![1, 64]⟩ x10 h3) x11
          (shapeCast ⟨2, ![1, 64]⟩ x12 h3) := by
  funext i
  obtain ⟨r, q, rfl⟩ : ∃ (r : Fin 50000) (q : Fin 64), i = ix2 r q := ⟨i 0, i 1, eq_ix2 i⟩
  rw [nodeStage_ix2, out_apply]
  exact row_congr rfl rfl
    (funext fun j => funext fun k => (extractStridedSlice_apply ![0, 0] x9 h1 (ix2 j k) (ix2 ⟨j.val, by have := j.isLt; omega⟩ k)
      fun a => by match a with
        | ⟨0, _⟩ => show j.val = 0 + j.val; omega
        | ⟨1, _⟩ => show k.val = 0 + k.val; omega).symm)
    (funext fun j => funext fun k => (extractStridedSlice_apply ![128, 0] x9 h2 (ix2 j k) (ix2 ⟨128 + j.val, by have := j.isLt; omega⟩ k)
      fun a => by match a with
        | ⟨0, _⟩ => show 128 + j.val = 128 + j.val; rfl
        | ⟨1, _⟩ => show k.val = 0 + k.val; omega).symm)
    (funext fun k => (shapeCast_a_1a_apply x10 h3 0 k).symm) rfl
    (funext fun n => (shapeCast_a_1a_apply x12 h3 0 n).symm) q

end Cert.ReferenceIdeal.NodeRef

end
-- ==== Proof.Bridge.lean ====
/-
  The kernel program's term and the reference's term are one function of the argument arrays.

  Both programs normalise the sender indices, gather, and scatter-add with the same host operations, so those parts
  of the two terms are the same term.  Between them sit the two stages: the reference's message array is the edge
  stage's function of the gathered features, and its result the node stage's function of the node features and the
  aggregated messages — with the weight matrix read as its first 128 and its last 64 rows and each bias laid as a row,
  which is how the kernel program hands them to its stages.
-/
import proofs.«108677_j48928267436353_2_alg».proof.Proof.KernelTerm
import proofs.«108677_j48928267436353_2_alg».proof.Proof.RefEdge
import proofs.«108677_j48928267436353_2_alg».proof.Proof.RefNode

noncomputable section

namespace Cert.Bridge

open Idealize.ShloMosaic Cert.SplitMlp
open Cert.ReferenceIdeal.Read

variable (a0 : (⟨Cert.KernelIdeal.S50000x128, .f32⟩ : BufTy).Contents (Elt Ideal)) (a1 : (⟨Cert.KernelIdeal.S2x800000, .i32⟩ : BufTy).Contents (Elt Ideal))
  (a2 : (⟨Cert.KernelIdeal.S800000x64, .f32⟩ : BufTy).Contents (Elt Ideal)) (a5 : (⟨Cert.KernelIdeal.S192x64, .f32⟩ : BufTy).Contents (Elt Ideal))
  (a6 : (⟨Cert.KernelIdeal.S64, .f32⟩ : BufTy).Contents (Elt Ideal)) (a7 : (⟨Cert.KernelIdeal.S64x64, .f32⟩ : BufTy).Contents (Elt Ideal))
  (a8 : (⟨Cert.KernelIdeal.S64, .f32⟩ : BufTy).Contents (Elt Ideal)) (a9 : (⟨Cert.KernelIdeal.S192x64, .f32⟩ : BufTy).Contents (Elt Ideal))
  (a10 : (⟨Cert.KernelIdeal.S64, .f32⟩ : BufTy).Contents (Elt Ideal)) (a11 : (⟨Cert.KernelIdeal.S64x64, .f32⟩ : BufTy).Contents (Elt Ideal))
  (a12 : (⟨Cert.KernelIdeal.S64, .f32⟩ : BufTy).Contents (Elt Ideal))

/-- The gathered sender features: the same host operations in both programs. -/
theorem gathered_eq : Cert.KernelIdeal.Term.gathered a0 a1 = val_main_v10 (F := Ideal) a0 a1 := rfl

/-- The messages: the kernel's edge stage on the gathered features is the reference's message array. -/
theorem messages_eq : Cert.KernelIdeal.Term.messages a0 a1 a2 a5 a6 a7 a8 = val_main_v21 (F := Ideal) a0 a1 a2 a5 a6 a7 a8 := by
  unfold Cert.KernelIdeal.Term.messages
  rw [gathered_eq]
  exact (Cert.ReferenceIdeal.EdgeRef.msg_eq a0 a1 a2 a5 a6 a7 a8 _ _ _).symm

/-- The aggregated messages: the same scatter-add of equal message arrays. -/
theorem aggregated_eq : Cert.KernelIdeal.Term.aggregated a0 a1 a2 a5 a6 a7 a8 = val_main_v24 (F := Ideal) a0 a1 a2 a5 a6 a7 a8 := by
  unfold Cert.KernelIdeal.Term.aggregated
  rw [messages_eq]
  rfl

/-- The result: the kernel's node stage on the node features and the aggregated messages is the reference's result. -/
theorem result_eq :
    Cert.KernelIdeal.Term.result a0 a1 a2 a5 a6 a7 a8 a9 a10 a11 a12 = val_main_v35 (F := Ideal) a0 a1 a2 a5 a6 a7 a8 a9 a10 a11 a12 := by
  unfold Cert.KernelIdeal.Term.result
  rw [aggregated_eq]
  exact (Cert.ReferenceIdeal.NodeRef.out_eq a0 a1 a2 a5 a6 a7 a8 a9 a10 a11 a12 _ _ _).symm

end Cert.Bridge

end
-- ==== Proof.lean ====
/-
  The proof of `Cert.Claim` for one message-passing layer of a graph network.

  The layer gathers each edge's sender features, applies a two-layer perceptron to every edge (the edge stage), adds
  each edge's message into its receiver's row, and applies a second two-layer perceptron to every node (the node
  stage).  The reference forms the first layer of each perceptron as ONE product of the joined inputs [a, b] with a
  192-row weight matrix; the kernel program forms it as TWO products, a with the matrix's first 128 rows and b with its
  last 64, and adds them.  On the extended reals the two agree for every input, finite or not, because a sum over the
  192 joined positions is the sum over the first 128 plus the sum over the last 64: addition is only regrouped, no
  product is distributed, nothing is cancelled.  So the precondition is never opened.

  The three frames: the kernel program's two are the generated frame certificates; the reference's is its generated
  run with the result dropped.  The idealization rewrote nothing, so what it must preserve is `True`.  For the value
  claim both runs end at ONE term: the kernel program's run leaves its result at the fold through its four stretches,
  which is the program's term of the launch contents (`Cert.KernelIdeal.Value.result_eq`); the reference's run leaves
  its composed term, which is the same function (`Cert.Bridge.result_eq`) of arrays that agree.
-/
import proofs.«108677_j48928267436353_2_alg».proof.Defs
import proofs.«108677_j48928267436353_2_alg».proof.Proof.Gen.Kernel
import proofs.«108677_j48928267436353_2_alg».proof.Proof.Gen.Kernel.Frame
import proofs.«108677_j48928267436353_2_alg».proof.Proof.Gen.KernelIdeal
import proofs.«108677_j48928267436353_2_alg».proof.Proof.Gen.KernelIdeal.Frame
import proofs.«108677_j48928267436353_2_alg».proof.Proof.Gen.ReferenceIdeal
import proofs.«108677_j48928267436353_2_alg».proof.Proof.Gen.ReferenceIdeal.Run
import proofs.«108677_j48928267436353_2_alg».proof.Proof.Gen.ReferenceIdeal.Read
import proofs.«108677_j48928267436353_2_alg».proof.Proof.Gen.Pre_finite_inputs
import proofs.«108677_j48928267436353_2_alg».proof.Proof.KernelRun
import proofs.«108677_j48928267436353_2_alg».proof.Proof.KernelValue
import proofs.«108677_j48928267436353_2_alg».proof.Proof.Bridge

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories that agree on the arguments, end with the result array at the kernel program's term
    of the launch contents. -/
theorem algebraic : Cert.algebraic_KernelIdeal_ReferenceIdeal := by
  intro m ρ m' ρ' _ hagree
  refine ⟨fun c => Cert.KernelIdeal.Term.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Value.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v35_eq (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))).trans ?_
    rw [(hagree c).1, (hagree c).2.1, (hagree c).2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.Bridge.result_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
